-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x32 : Shape := ⟨2, ![1000000, 32]⟩
abbrev S2x1000000 : Shape := ⟨2, ![2, 1000000]⟩
abbrev S64x32 : Shape := ⟨2, ![64, 32]⟩
abbrev S64 : Shape := ⟨1, ![64]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_arg9 : FVec F S192x64 .f32) (main_arg10 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192 .f32 := Host.absf main_arg10
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S192x64 .f32) (main_arg8 : FVec F S192 .f32) (main_arg9 : FVec F S192x64 .f32) (main_arg10 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : FVec F S1000000x32 .f32) (main_arg2 : IVec S2x1000000 32) (main_arg3 : FVec F S64x32 .f32) (main_arg4 : FVec F S64 .f32) (main_arg5 : FVec F S64x64 .f32) (main_arg6 : FVec F S64 .f32) (main_arg7 : FVec F S192x64 .f32) (main_arg8 : FVec F S192 .f32) (main_arg9 : FVec F S192x64 .f32) (main_arg10 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S1000000x32 : Shape := ⟨2, ![1000000, 32]⟩
abbrev S2x1000000 : Shape := ⟨2, ![2, 1000000]⟩
abbrev S64x32 : Shape := ⟨2, ![64, 32]⟩
abbrev S64 : Shape := ⟨1, ![64]⟩
abbrev S64x64 : Shape := ⟨2, ![64, 64]⟩
abbrev S192x64 : Shape := ⟨2, ![192, 64]⟩
abbrev S192 : Shape := ⟨1, ![192]⟩
abbrev S1x1000000 : Shape := ⟨2, ![1, 1000000]⟩
abbrev S1000000 : Shape := ⟨1, ![1000000]⟩
abbrev S1x64 : Shape := ⟨2, ![1, 64]⟩
abbrev S1000000x64 : Shape := ⟨2, ![1000000, 64]⟩
abbrev S10000x32 : Shape := ⟨2, ![10000, 32]⟩
abbrev S10000x64 : Shape := ⟨2, ![10000, 64]⟩
abbrev S32x64 : Shape := ⟨2, ![32, 64]⟩
abbrev S_ : Shape := ⟨0, ![]⟩
abbrev S1000000x1 : Shape := ⟨2, ![1000000, 1]⟩
abbrev S1x192 : Shape := ⟨2, ![1, 192]⟩
abbrev S2000x64 : Shape := ⟨2, ![2000, 64]⟩
abbrev S64x192 : Shape := ⟨2, ![64, 192]⟩
abbrev S2000x192 : Shape := ⟨2, ![2000, 192]⟩

abbrev nBuf : Space → Nat
  | .hbm => 86
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S1000000x32, .f32⟩
  | .hbm, ⟨2, _⟩ => ⟨S2x1000000, .i32⟩
  | .hbm, ⟨3, _⟩ => ⟨S64x32, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192, .f32⟩
  | .hbm, ⟨9, _⟩ => ⟨S192x64, .f32⟩
  | .hbm, ⟨10, _⟩ => ⟨S192, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S1x64, .f32⟩
  | .hbm, ⟨16, _⟩ => ⟨S1x64, .f32⟩
  | .hbm, ⟨17, _⟩ => ⟨S1000000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S1x192, .f32⟩
  | .hbm, ⟨33, _⟩ => ⟨S1x192, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S1x192, .f32⟩
  | .hbm, ⟨50, _⟩ => ⟨S1x192, .f32⟩
  | .hbm, ⟨51, _⟩ => ⟨S100000x64, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S1x192, .f32⟩
  | .hbm, ⟨67, _⟩ => ⟨S1x192, .f32⟩
  | .hbm, ⟨68, _⟩ => ⟨S100000x64, .f32⟩
  | .hbm, ⟨69, _⟩ => ⟨S_, .i32⟩
  | .hbm, ⟨70, _⟩ => ⟨S1000000, .i32⟩
  | .hbm, ⟨71, _⟩ => ⟨S1000000, .i1⟩
  | .hbm, ⟨72, _⟩ => ⟨S_, .i32⟩
  | .hbm, ⟨73, _⟩ => ⟨S1000000, .i32⟩
  | .hbm, ⟨74, _⟩ => ⟨S1000000, .i32⟩
  | .hbm, ⟨75, _⟩ => ⟨S1000000, .i32⟩
  | .hbm, ⟨76, _⟩ => ⟨S1000000x1, .i32⟩
  | .hbm, ⟨77, _⟩ => ⟨S1000000x64, .f32⟩
  | .hbm, ⟨78, _⟩ => ⟨S1000000x64, .f32⟩
  | .hbm, ⟨79, _⟩ => ⟨S_, .f32⟩
  | .hbm, ⟨80, _⟩ => ⟨S100000x64, .f32⟩
  | .hbm, ⟨81, _⟩ => ⟨S1000000x1, .i32⟩
  | .hbm, ⟨82, _⟩ => ⟨S100000x64, .f32⟩
  | .hbm, ⟨83, _⟩ => ⟨S1x192, .f32⟩
  | .hbm, ⟨84, _⟩ => ⟨S1x192, .f32⟩
  | .hbm, ⟨85, _⟩ => ⟨S100000x64, .f32⟩
  | .local _ .vmem, ⟨0, _⟩ => ⟨S10000x32, .f32⟩
  | .local _ .vmem, ⟨1, _⟩ => ⟨S10000x32, .f32⟩
  | .local _ .vmem, ⟨2, _⟩ => ⟨S64x32, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S192x64, .f32⟩
  | .local _ .vmem, ⟨13, _⟩ => ⟨S1x192, .f32⟩
  | .local _ .vmem, ⟨14, _⟩ => ⟨S192x64, .f32⟩
  | .local _ .vmem, ⟨15, _⟩ => ⟨S1x192, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S192x64, .f32⟩
  | .local _ .vmem, ⟨23, _⟩ => ⟨S1x192, .f32⟩
  | .local _ .vmem, ⟨24, _⟩ => ⟨S192x64, .f32⟩
  | .local _ .vmem, ⟨25, _⟩ => ⟨S1x192, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S192x64, .f32⟩
  | .local _ .vmem, ⟨33, _⟩ => ⟨S1x192, .f32⟩
  | .local _ .vmem, ⟨34, _⟩ => ⟨S192x64, .f32⟩
  | .local _ .vmem, ⟨35, _⟩ => ⟨S1x192, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S192x64, .f32⟩
  | .local _ .vmem, ⟨43, _⟩ => ⟨S1x192, .f32⟩
  | .local _ .vmem, ⟨44, _⟩ => ⟨S192x64, .f32⟩
  | .local _ .vmem, ⟨45, _⟩ => ⟨S1x192, .f32⟩
  | .local _ .vmem, ⟨46, _⟩ => ⟨S2000x64, .f32⟩
  | .local _ .vmem, ⟨47, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S192x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S192x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S192x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S192x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x32_p1_0_S32x64 : S64x32.Transposes [1, 0] S32x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S10000x64_S10000x64_0_0 : ∀ a, (![0, 0] : Fin 2 → Nat) a + S10000x64.size a ≤ S10000x64.size a
  h_S10000x64 : 0 < S10000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S192_S1x192 : S192.ShapeCasts S1x192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S192x64_S192x64_0_0 : ∀ a, (![0, 0] : Fin 2 → Nat) a + S192x64.size a ≤ S192x64.size a
  h_S192x64 : 0 < S192x64.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  transposes_S192x64_p1_0_S64x192 : S192x64.Transposes [1, 0] S64x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S1000000x32.size a
  hwx0_0 : ∀ i : grid0.Coords, EltTy.bits .f32 = 32 ∨ (Rect.block (s := S1000000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x64.size a ≤ S192x64.size a
  hwx1_2 : ∀ i : grid1.Coords, EltTy.bits .f32 = 32 ∨ (Rect.block (s := S192x64) S192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192x64.size a ≤ S192x64.size a
  hwx1_4 : ∀ i : grid1.Coords, EltTy.bits .f32 = 32 ∨ (Rect.block (s := S192x64) S192x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x64.size a ≤ S192x64.size a
  hwx2_2 : ∀ i : grid2.Coords, EltTy.bits .f32 = 32 ∨ (Rect.block (s := S192x64) S192x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x192.size a ≤ S1x192.size a
  hwx2_3 : ∀ i : grid2.Coords, EltTy.bits .f32 = 32 ∨ (Rect.block (s := S1x192) S1x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S192x64.size a ≤ S192x64.size a
  hwx2_4 : ∀ i : grid2.Coords, EltTy.bits .f32 = 32 ∨ (Rect.block (s := S192x64) S192x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x192.size a ≤ S1x192.size a
  hwx2_5 : ∀ i : grid2.Coords, EltTy.bits .f32 = 32 ∨ (Rect.block (s := S1x192) S1x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x64.size a ≤ S192x64.size a
  hwx3_2 : ∀ i : grid3.Coords, EltTy.bits .f32 = 32 ∨ (Rect.block (s := S192x64) S192x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x192.size a ≤ S1x192.size a
  hwx3_3 : ∀ i : grid3.Coords, EltTy.bits .f32 = 32 ∨ (Rect.block (s := S1x192) S1x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S192x64.size a ≤ S192x64.size a
  hwx3_4 : ∀ i : grid3.Coords, EltTy.bits .f32 = 32 ∨ (Rect.block (s := S192x64) S192x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S192x64.size a ≤ S192x64.size a
  hwx4_2 : ∀ i : grid4.Coords, EltTy.bits .f32 = 32 ∨ (Rect.block (s := S192x64) S192x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x192.size a ≤ S1x192.size a
  hwx4_3 : ∀ i : grid4.Coords, EltTy.bits .f32 = 32 ∨ (Rect.block (s := S1x192) S1x192.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S192x64.size a ≤ S192x64.size a
  hwx4_4 : ∀ i : grid4.Coords, EltTy.bits .f32 = 32 ∨ (Rect.block (s := S192x64) S192x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x192.size a ≤ S1x192.size a
  hwx4_5 : ∀ i : grid4.Coords, EltTy.bits .f32 = 32 ∨ (Rect.block (s := S1x192) S1x192.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg1) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S192x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S192x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S192x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S192x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v59) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S192x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x192.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S192x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v61) S1x192.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x64 : Shape := ⟨2, ![100000, 64]⟩
abbrev S1000000x32 : Shape := ⟨2, ![1000000, 32]⟩
abbrev S2x1000000 : Shape := ⟨2, ![2, 1000000]⟩
abbrev S64x32 : Shape := ⟨2, ![64, 32]⟩
abbrev S64 : Shape := ⟨1, ![64]⟩
abbrev S64x64 : Shape := ⟨2, ![64, 64]⟩
abbrev S192x64 : Shape := ⟨2, ![192, 64]⟩
abbrev S192 : Shape := ⟨1, ![192]⟩
abbrev S1x1000000 : Shape := ⟨2, ![1, 1000000]⟩
abbrev S1000000 : Shape := ⟨1, ![1000000]⟩
abbrev S32x64 : Shape := ⟨2, ![32, 64]⟩
abbrev S1000000x64 : Shape := ⟨2, ![1000000, 64]⟩
abbrev S1x64 : Shape := ⟨2, ![1, 64]⟩
abbrev S_ : Shape := ⟨0, ![]⟩
abbrev S1000000x1 : Shape := ⟨2, ![1000000, 1]⟩
abbrev S64x192 : Shape := ⟨2, ![64, 192]⟩
abbrev S100000x192 : Shape := ⟨2, ![100000, 192]⟩
abbrev S1x192 : Shape := ⟨2, ![1, 192]⟩

abbrev nBuf : Space → Nat
  | .hbm => 256
  | .vmem => 0
  | .smem => 0
  | _ => 0

abbrev hbmTy0_0 (i : Nat) : BufTy := match i % 128 with
  | 0 => ⟨S100000x64, .f32⟩
  | 1 => ⟨S1000000x32, .f32⟩
  | 2 => ⟨S2x1000000, .i32⟩
  | 3 => ⟨S64x32, .f32⟩
  | 4 => ⟨S64, .f32⟩
  | 5 => ⟨S64x64, .f32⟩
  | 6 => ⟨S64, .f32⟩
  | 7 => ⟨S192x64, .f32⟩
  | 8 => ⟨S192, .f32⟩
  | 9 => ⟨S192x64, .f32⟩
  | 10 => ⟨S192, .f32⟩
  | 11 => ⟨S1x1000000, .i32⟩
  | 12 => ⟨S1000000, .i32⟩
  | 13 => ⟨S1x1000000, .i32⟩
  | 14 => ⟨S1000000, .i32⟩
  | 15 => ⟨S32x64, .f32⟩
  | 16 => ⟨S1000000x64, .f32⟩
  | 17 => ⟨S1x64, .f32⟩
  | 18 => ⟨S1000000x64, .f32⟩
  | 19 => ⟨S1000000x64, .f32⟩
  | 20 => ⟨S_, .f32⟩
  | 21 => ⟨S1000000x64, .f32⟩
  | 22 => ⟨S1000000x64, .f32⟩
  | 23 => ⟨S64x64, .f32⟩
  | 24 => ⟨S1000000x64, .f32⟩
  | 25 => ⟨S1x64, .f32⟩
  | 26 => ⟨S1000000x64, .f32⟩
  | 27 => ⟨S1000000x64, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S1000000x64, .f32⟩
  | 38 => ⟨S_, .f32⟩
  | 39 => ⟨S100000x64, .f32⟩
  | 40 => ⟨S1000000x1, .i32⟩
  | 41 => ⟨S100000x64, .f32⟩
  | 42 => ⟨S64x192, .f32⟩
  | 43 => ⟨S100000x192, .f32⟩
  | 44 => ⟨S1x192, .f32⟩
  | 45 => ⟨S100000x192, .f32⟩
  | 46 => ⟨S100000x192, .f32⟩
  | 47 => ⟨S64x192, .f32⟩
  | 48 => ⟨S100000x192, .f32⟩
  | 49 => ⟨S1x192, .f32⟩
  | 50 => ⟨S100000x192, .f32⟩
  | 51 => ⟨S100000x192, .f32⟩
  | 52 => ⟨S100000x64, .f32⟩
  | 53 => ⟨S100000x64, .f32⟩
  | 54 => ⟨S100000x64, .f32⟩
  | 55 => ⟨S100000x64, .f32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S100000x64, .f32⟩
  | 84 => ⟨S100000x64, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x64, .f32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S64x192, .f32⟩
  | 100 => ⟨S100000x192, .f32⟩
  | 101 => ⟨S1x192, .f32⟩
  | 102 => ⟨S100000x192, .f32⟩
  | 103 => ⟨S100000x192, .f32⟩
  | 104 => ⟨S64x192, .f32⟩
  | 105 => ⟨S100000x192, .f32⟩
  | 106 => ⟨S1x192, .f32⟩
  | 107 => ⟨S100000x192, .f32⟩
  | 108 => ⟨S100000x192, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S64x192, .f32⟩
  | 29 => ⟨S100000x192, .f32⟩
  | 30 => ⟨S1x192, .f32⟩
  | 31 => ⟨S100000x192, .f32⟩
  | 32 => ⟨S100000x192, .f32⟩
  | 33 => ⟨S64x192, .f32⟩
  | 34 => ⟨S100000x192, .f32⟩
  | 35 => ⟨S1x192, .f32⟩
  | 36 => ⟨S100000x192, .f32⟩
  | 37 => ⟨S100000x192, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x64, .f32⟩
  | 80 => ⟨S1000000x64, .f32⟩
  | 81 => ⟨S_, .f32⟩
  | 82 => ⟨S100000x64, .f32⟩
  | 83 => ⟨S1000000x1, .i32⟩
  | 84 => ⟨S100000x64, .f32⟩
  | 85 => ⟨S64x192, .f32⟩
  | 86 => ⟨S100000x192, .f32⟩
  | 87 => ⟨S1x192, .f32⟩
  | 88 => ⟨S100000x192, .f32⟩
  | 89 => ⟨S100000x192, .f32⟩
  | 90 => ⟨S64x192, .f32⟩
  | 91 => ⟨S100000x192, .f32⟩
  | 92 => ⟨S1x192, .f32⟩
  | 93 => ⟨S100000x192, .f32⟩
  | 94 => ⟨S100000x192, .f32⟩
  | 95 => ⟨S100000x64, .f32⟩
  | 96 => ⟨S100000x64, .f32⟩
  | 97 => ⟨S100000x64, .f32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_cst_2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_6 : Ref sig .tc := ⟨.hbm, 85, rfl⟩
abbrev main_v64 : Ref sig .tc := ⟨.hbm, 86, rfl⟩
abbrev main_v65 : Ref sig .tc := ⟨.hbm, 87, rfl⟩
abbrev main_c_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_9 : Ref sig .tc := ⟨.hbm, 118, rfl⟩
abbrev main_v94 : Ref sig .tc := ⟨.hbm, 119, rfl⟩
abbrev main_v95 : Ref sig .tc := ⟨.hbm, 120, rfl⟩
abbrev main_cst_10 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_11 : Ref sig .tc := ⟨.hbm, 127, rfl⟩
abbrev main_v101 : Ref sig .tc := ⟨.hbm, 128, rfl⟩
abbrev main_v102 : Ref sig .tc := ⟨.hbm, 129, rfl⟩
abbrev main_cst_12 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_13 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_14 : Ref sig .tc := ⟨.hbm, 142, rfl⟩
abbrev main_v113 : Ref sig .tc := ⟨.hbm, 143, rfl⟩
abbrev main_v114 : Ref sig .tc := ⟨.hbm, 144, rfl⟩
abbrev main_c_15 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_16 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_17 : Ref sig .tc := ⟨.hbm, 175, rfl⟩
abbrev main_v143 : Ref sig .tc := ⟨.hbm, 176, rfl⟩
abbrev main_v144 : Ref sig .tc := ⟨.hbm, 177, rfl⟩
abbrev main_cst_18 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_19 : Ref sig .tc := ⟨.hbm, 184, rfl⟩
abbrev main_v150 : Ref sig .tc := ⟨.hbm, 185, rfl⟩
abbrev main_v151 : Ref sig .tc := ⟨.hbm, 186, rfl⟩
abbrev main_cst_20 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_21 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_c_22 : Ref sig .tc := ⟨.hbm, 199, rfl⟩
abbrev main_v162 : Ref sig .tc := ⟨.hbm, 200, rfl⟩
abbrev main_v163 : Ref sig .tc := ⟨.hbm, 201, rfl⟩
abbrev main_c_23 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_24 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_cst_25 : Ref sig .tc := ⟨.hbm, 232, rfl⟩
abbrev main_v192 : Ref sig .tc := ⟨.hbm, 233, rfl⟩
abbrev main_v193 : Ref sig .tc := ⟨.hbm, 234, rfl⟩
abbrev main_cst_26 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_cst_27 : Ref sig .tc := ⟨.hbm, 241, rfl⟩
abbrev main_v199 : Ref sig .tc := ⟨.hbm, 242, rfl⟩
abbrev main_v200 : Ref sig .tc := ⟨.hbm, 243, rfl⟩
abbrev main_cst_28 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_cst_29 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x32_S32x64_1_0 : S64x32.Transposes [1, 0] S32x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  dot_S1000000x32_S32x64_S1000000x64_1_0_0_1_n_n_wf : DotDims.WF S1000000x32 S32x64 S1000000x64 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x192_S100000x192_1_0_0_1_n_n_wf : DotDims.WF S100000x64 S64x192 S100000x192 [1] [0] [0] [1] [] []

variable [Facts₀]

def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.KernelRun.lean ====
/-
  The whole program's run with its result named.

  The program is five calls among stretches of host operations.  Every weakly fair execution ends with each buffer
  holding what the last boundary's contents say: the result buffer holds the fifth call's output array, and the
  eleven arguments hold what they were launched with.
-/
import proofs.«161548_j48455821033925_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the arguments end as launched. -/
theorem run : θ_run defs (onTc (τ := τ) (main (F := F))) ⟨m, fun _ => 0, ρ⟩ (fun r => ∀ c : Dev nD,
      r.2.mem ((c.tc : Thread nD τ).loc main_v62) = W10 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v62 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Whole

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibDenseRows.lean ====
/-
  A dense layer read one row at a time, at the ideal values.

  For a matrix `x` of shape [R, K], a weight matrix `w` of shape [C, K] and a bias of C entries, the layer
  `x · wᵀ + bias` at output index (r, c) is the sum over k of x (r, k) · w (c, k), plus bias c: a function of ROW r of
  `x` alone.  Two spellings compute it: a matrix product of `x` with the transposed weights into a zero accumulator
  plus a [1, C] row stretched over the R rows, and the host's `dot_general` against the transposed weights plus a
  C-vector broadcast along the rows.  Both are `denseRow` of the row.  The extents are symbolic, so one lemma
  serves a block of rows and the whole array.
-/
import Idealize.ShloMosaic.PureOps.Ideal.Laws
import Idealize.ShloMosaic.Lib.ValueIdx
import Idealize.ShloMosaic.Lib.Pipeline.Value
import proofs.«161548_j48455821033925_1_alg».proof.Proof.LibPlainDot

noncomputable section

namespace Cert.Lib.DenseRows

open Idealize.ShloMosaic Idealize.ShloMosaic.ValueIdx
open scoped BigOperators

/-- The index (a, b) of a rank-2 array, from two naturals and their bounds. -/
abbrev at2 {n0 n1 : Nat} (a b : Nat) (ha : a < n0) (hb : b < n1) : (⟨2, ![n0, n1]⟩ : Shape).Idx := fun d => match d with
  | ⟨0, _⟩ => ⟨a, ha⟩
  | ⟨1, _⟩ => ⟨b, hb⟩

theorem eq_at2 {n0 n1 : Nat} (j : (⟨2, ![n0, n1]⟩ : Shape).Idx) : j = at2 (j 0).val (j 1).val (idx2_lt0 j) (idx2_lt1 j) := by
  funext d; match d with | ⟨0, _⟩ => rfl | ⟨1, _⟩ => rfl

/-- Two indices with the same coordinates are the same index. -/
theorem at2_congr {n0 n1 : Nat} {a b a' b' : Nat} (ha : a < n0) (hb : b < n1) (ha' : a' < n0) (hb' : b' < n1)
    (ea : a = a') (eb : b = b') : (at2 a b ha hb : (⟨2, ![n0, n1]⟩ : Shape).Idx) = at2 a' b' ha' hb' := by
  subst ea; subst eb; rfl

/-- Row `r` of a matrix, as a function of the column. -/
def rowOf {R K : Nat} (x : (⟨2, ![R, K]⟩ : Shape).Idx → EReal) (r : Nat) (hr : r < R) : Fin K → EReal :=
  fun k => x (at2 r k.val hr k.isLt)

/-- Output `c` of a dense layer on one input row: the row against row `c` of the weights, plus bias `c`. -/
def denseRow {K C : Nat} (x : Fin K → EReal) (w : (⟨2, ![C, K]⟩ : Shape).Idx → EReal) (b : Fin C → EReal)
    (c : Nat) (hc : c < C) : EReal :=
  (∑ k : Fin K, x k * w (at2 c k.val hc k.isLt)) + b ⟨c, hc⟩

variable {R K C : Nat}

/-- The transposed weights read at the right operand's index (k, c) are the weights at (c, k). -/
theorem transposed_at {α : Type} (w : (⟨2, ![C, K]⟩ : Shape).Idx → α)
    (ht : (⟨2, ![C, K]⟩ : Shape).Transposes [1, 0] ⟨2, ![K, C]⟩) (j : (⟨2, ![R, C]⟩ : Shape).Idx) (k : Fin K) :
    transpose ⟨2, ![K, C]⟩ [1, 0] w ht (Cert.Lib.PlainDot.colIdx j k) = w (at2 (j 1).val k.val (idx2_lt1 j) k.isLt) :=
  transpose_apply [1, 0] w ht _ _ (fun b => match b with
    | ⟨0, _⟩ => rfl
    | ⟨1, _⟩ => rfl)

theorem rowIdx_eq (j : (⟨2, ![R, C]⟩ : Shape).Idx) (k : Fin K) :
    (Cert.Lib.PlainDot.rowIdx j k : (⟨2, ![R, K]⟩ : Shape).Idx) = at2 (j 0).val k.val (idx2_lt0 j) k.isLt := by
  funext d; match d with | ⟨0, _⟩ => rfl | ⟨1, _⟩ => rfl

/-- A [1, C] row stretched over R rows, read at (r, c), is the row's entry c. -/
theorem rowStretch_at {α : Type} (b : (⟨2, ![1, C]⟩ : Shape).Idx → α)
    (hb : (⟨2, ![1, C]⟩ : Shape).Broadcasts ⟨2, ![R, C]⟩) (j : (⟨2, ![R, C]⟩ : Shape).Idx) :
    broadcastTo ⟨2, ![R, C]⟩ b hb j = b (at2 0 (j 1).val Nat.one_pos (idx2_lt1 j)) :=
  broadcastTo_apply b hb j _ (fun a => match a with
    | ⟨0, _⟩ => by show (0 : Nat) = if (1 : Nat) = 1 then 0 else _; rw [if_pos rfl]
    | ⟨1, _⟩ => by
        show (j 1).val = if C = 1 then 0 else (j 1).val
        have hj : (j 1).val < C := (idx2_lt1 j)
        split <;> omega)

/-- A C-vector laid out as a [1, C] row and stretched over R rows by the host, read at (r, c), is entry c. -/
theorem vecStretch_at {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (j : (⟨2, ![R, C]⟩ : Shape).Idx) :
    broadcastInDim ⟨2, ![R, C]⟩ ![0, 1] h2 (broadcastInDim ⟨2, ![1, C]⟩ ![1] h1 b) j = b (ix1 ⟨(j 1).val, idx2_lt1 j⟩) := by
  have hj : (j 1).val < C := idx2_lt1 j
  refine (broadcastInDim_apply ![0, 1] h2 _ j (at2 0 (j 1).val Nat.one_pos (idx2_lt1 j)) (fun a => match a with
    | ⟨0, _⟩ => by show (0 : Nat) = if (1 : Nat) = 1 then 0 else _; rw [if_pos rfl]
    | ⟨1, _⟩ => by
        show (j 1).val = if C = 1 then 0 else (j 1).val
        split <;> omega)).trans ?_
  exact broadcastInDim_apply ![1] h1 b _ _ (fun a => match a with
    | ⟨0, _⟩ => by
        show (j 1).val = if C = 1 then 0 else (j 1).val
        split <;> omega)

/-- A slice of `n` columns from column `o` on, read at (r, c), is the array at (r, o + c). -/
theorem colSlice_at {α : Type} {W n : Nat} (o : Nat) (x : (⟨2, ![R, W]⟩ : Shape).Idx → α)
    (h : (⟨2, ![R, W]⟩ : Shape).Slices ![0, o] ⟨2, ![R, n]⟩) (ho : o + n ≤ W) (j : (⟨2, ![R, n]⟩ : Shape).Idx) :
    extractStridedSlice ⟨2, ![R, n]⟩ ![0, o] x h j
      = x (at2 (j 0).val (o + (j 1).val) (idx2_lt0 j) (by have := idx2_lt1 j; omega)) :=
  extractStridedSlice_apply ![0, o] x h j _ (fun a => match a with
    | ⟨0, _⟩ => by show (j 0).val = 0 + (j 0).val; omega
    | ⟨1, _⟩ => rfl)

/-- The kernel's spelling: the product with the transposed weights into the zero accumulator, plus the stretched
    bias row, at (r, c) is `denseRow` of row r. -/
theorem matmul_bias_sum {φ₁ φ₂ : FTy} (d : DotDims ⟨2, ![R, K]⟩ ⟨2, ![K, C]⟩ ⟨2, ![R, C]⟩) (hd : d = DotDims.plain R K C)
    (prec : Option ContractPrecision) (x : FVec Ideal ⟨2, ![R, K]⟩ φ₁) (w : FVec Ideal ⟨2, ![C, K]⟩ φ₂)
    (ht : (⟨2, ![C, K]⟩ : Shape).Transposes [1, 0] ⟨2, ![K, C]⟩)
    (b : FVec Ideal ⟨2, ![1, C]⟩ .f32) (hb : (⟨2, ![1, C]⟩ : Shape).Broadcasts ⟨2, ![R, C]⟩)
    (j : (⟨2, ![R, C]⟩ : Shape).Idx) :
    FloatOps.matmul d prec x (transpose ⟨2, ![K, C]⟩ [1, 0] w ht) (constant ⟨2, ![R, C]⟩ .f32 0x00000000#32) j
        + broadcastTo ⟨2, ![R, C]⟩ b hb j
      = denseRow (rowOf x (j 0).val (idx2_lt0 j)) w (fun c => b (at2 0 c.val Nat.one_pos c.isLt)) (j 1).val (idx2_lt1 j) := by
  rw [Cert.Lib.PlainDot.matmul_zero_apply d hd, rowStretch_at]
  unfold Cert.Lib.PlainDot.mm denseRow rowOf
  refine congrArg (· + _) (Finset.sum_congr rfl fun k _ => ?_)
  exact congrArg₂ (· * ·) (congrArg x (rowIdx_eq j k)) (transposed_at w ht j k)

theorem matmul_bias_at {φ₁ φ₂ : FTy} (d : DotDims ⟨2, ![R, K]⟩ ⟨2, ![K, C]⟩ ⟨2, ![R, C]⟩) (hd : d = DotDims.plain R K C)
    (prec : Option ContractPrecision) (x : FVec Ideal ⟨2, ![R, K]⟩ φ₁) (w : FVec Ideal ⟨2, ![C, K]⟩ φ₂)
    (ht : (⟨2, ![C, K]⟩ : Shape).Transposes [1, 0] ⟨2, ![K, C]⟩)
    (b : FVec Ideal ⟨2, ![1, C]⟩ .f32) (hb : (⟨2, ![1, C]⟩ : Shape).Broadcasts ⟨2, ![R, C]⟩)
    (j : (⟨2, ![R, C]⟩ : Shape).Idx) :
    addf (FloatOps.matmul d prec x (transpose ⟨2, ![K, C]⟩ [1, 0] w ht) (constant ⟨2, ![R, C]⟩ .f32 0x00000000#32))
        (broadcastTo ⟨2, ![R, C]⟩ b hb) j
      = denseRow (rowOf x (j 0).val (idx2_lt0 j)) w (fun c => b (at2 0 c.val Nat.one_pos c.isLt)) (j 1).val (idx2_lt1 j) :=
  matmul_bias_sum d hd prec x w ht b hb j

/-- The host's spelling: `dot_general` against the transposed weights plus the broadcast bias vector, at (r, c),
    is `denseRow` of row r. -/
theorem dotGeneral_bias_sum {φ₁ φ₂ : FTy} (d : DotDims ⟨2, ![R, K]⟩ ⟨2, ![K, C]⟩ ⟨2, ![R, C]⟩) (hd : d = DotDims.plain R K C)
    (prec : Option ContractPrecision) (sched : HostSchedule) (x : FVec Ideal ⟨2, ![R, K]⟩ φ₁) (w : FVec Ideal ⟨2, ![C, K]⟩ φ₂)
    (ht : (⟨2, ![C, K]⟩ : Shape).Transposes [1, 0] ⟨2, ![K, C]⟩)
    (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (j : (⟨2, ![R, C]⟩ : Shape).Idx) :
    FloatOps.dotGeneral d prec sched x (transpose ⟨2, ![K, C]⟩ [1, 0] w ht) j
        + broadcastInDim ⟨2, ![R, C]⟩ ![0, 1] h2 (broadcastInDim ⟨2, ![1, C]⟩ ![1] h1 b) j
      = denseRow (rowOf x (j 0).val (idx2_lt0 j)) w (fun c => b (ix1 c)) (j 1).val (idx2_lt1 j) := by
  rw [Cert.Lib.PlainDot.dotGeneral_apply d hd, vecStretch_at]
  unfold Cert.Lib.PlainDot.mm denseRow rowOf
  refine congrArg (· + _) (Finset.sum_congr rfl fun k _ => ?_)
  exact congrArg₂ (· * ·) (congrArg x (rowIdx_eq j k)) (transposed_at w ht j k)

theorem dotGeneral_bias_at {φ₁ φ₂ : FTy} (d : DotDims ⟨2, ![R, K]⟩ ⟨2, ![K, C]⟩ ⟨2, ![R, C]⟩) (hd : d = DotDims.plain R K C)
    (prec : Option ContractPrecision) (sched : HostSchedule) (x : FVec Ideal ⟨2, ![R, K]⟩ φ₁) (w : FVec Ideal ⟨2, ![C, K]⟩ φ₂)
    (ht : (⟨2, ![C, K]⟩ : Shape).Transposes [1, 0] ⟨2, ![K, C]⟩)
    (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (j : (⟨2, ![R, C]⟩ : Shape).Idx) :
    addf (FloatOps.dotGeneral d prec sched x (transpose ⟨2, ![K, C]⟩ [1, 0] w ht))
        (broadcastInDim ⟨2, ![R, C]⟩ ![0, 1] h2 (broadcastInDim ⟨2, ![1, C]⟩ ![1] h1 b)) j
      = denseRow (rowOf x (j 0).val (idx2_lt0 j)) w (fun c => b (ix1 c)) (j 1).val (idx2_lt1 j) :=
  dotGeneral_bias_sum d hd prec sched x w ht b h1 h2 j

end Cert.Lib.DenseRows

end
-- ==== Proof.GnnSpec.lean ====
/-
  The mathematics of one message-passing network with a gated recurrent update, one row at a time.

  * The edge network: for an edge with attribute row `e` (32 entries), `mlpRow e` is the two-layer perceptron
    `relu (e · W1ᵀ + b1) · W2ᵀ + b2` (64 entries).
  * The gated recurrent cell: for a node with aggregated message row `a` and state row `h` (64 entries each),
    with `gi = a · W_ihᵀ + b_ih` and `gh = h · W_hhᵀ + b_hh` (192 entries each, three gates of 64),
      r = σ (gi[c] + gh[c]),   z = σ (gi[64 + c] + gh[64 + c]),   n = tanh (gi[128 + c] + r · gh[128 + c]),
      new state[c] = (1 − z) · n + z · h[c].
  Both are functions of the ROW alone, so an array computed block of rows by block of rows and the array computed
  whole agree entry by entry; `mlpArr` and `gruArr` are the whole-array forms, any row count.
  The logistic function σ is `1 / (1 + exp (−x))` on the extended reals, with the float word of 1.0 read as 1.
-/
import proofs.«161548_j48455821033925_1_alg».proof.Proof.LibDenseRows

noncomputable section

namespace Cert.Gnn

open Idealize.ShloMosaic Idealize.ShloMosaic.ValueIdx Cert.Lib.DenseRows

/-- The float word of 0.0 at the ideal values (the rectifier's threshold). -/
abbrev zeroW : EReal := Ideal.ofBits .f32 0x00000000#32
/-- The float word of 1.0 at the ideal values. -/
abbrev oneW : EReal := Ideal.ofBits .f32 0x3F800000#32

/-- The word of 1.0 denotes the number one. -/
theorem oneW_eq : oneW = 1 := by
  simp [Ideal.ofBits, Ideal.ieee, -EReal.coe_mul]; norm_num

/-- The logistic function spelt with the word of 1.0, as a host program expands it. -/
theorem logistic_eq (x : EReal) : Ideal.div oneW (oneW + Ideal.exp (-x)) = Ideal.logistic x := by
  rw [oneW_eq]; rfl

/-- The edge network on one attribute row. -/
def mlpRow (e : Fin 32 → EReal) (w1 : (⟨2, ![64, 32]⟩ : Shape).Idx → EReal) (b1 : Fin 64 → EReal)
    (w2 : (⟨2, ![64, 64]⟩ : Shape).Idx → EReal) (b2 : Fin 64 → EReal) (c : Nat) (hc : c < 64) : EReal :=
  denseRow (fun k : Fin 64 => max (denseRow e w1 b1 k.val k.isLt) zeroW) w2 b2 c hc

/-- The gated recurrent cell on one node: entry `c` of the new state from the node's message row `a` and state row `h`. -/
def gruRow (a h : Fin 64 → EReal) (wih : (⟨2, ![192, 64]⟩ : Shape).Idx → EReal) (bih : Fin 192 → EReal)
    (whh : (⟨2, ![192, 64]⟩ : Shape).Idx → EReal) (bhh : Fin 192 → EReal) (c : Nat) (hc : c < 64) : EReal :=
  (oneW - Ideal.logistic (denseRow a wih bih (64 + c) (by omega) + denseRow h whh bhh (64 + c) (by omega)))
      * Ideal.tanh (denseRow a wih bih (128 + c) (by omega)
          + Ideal.logistic (denseRow a wih bih c (by omega) + denseRow h whh bhh c (by omega)) * denseRow h whh bhh (128 + c) (by omega))
    + Ideal.logistic (denseRow a wih bih (64 + c) (by omega) + denseRow h whh bhh (64 + c) (by omega)) * h ⟨c, hc⟩

variable {R : Nat}

/-- The edge network on every row of an attribute matrix. -/
def mlpArr (E : (⟨2, ![R, 32]⟩ : Shape).Idx → EReal) (w1 : (⟨2, ![64, 32]⟩ : Shape).Idx → EReal) (b1 : Fin 64 → EReal)
    (w2 : (⟨2, ![64, 64]⟩ : Shape).Idx → EReal) (b2 : Fin 64 → EReal) : (⟨2, ![R, 64]⟩ : Shape).Idx → EReal :=
  fun i => mlpRow (rowOf E (i 0).val (idx2_lt0 i)) w1 b1 w2 b2 (i 1).val (idx2_lt1 i)

/-- The gated recurrent cell on every node. -/
def gruArr (A H : (⟨2, ![R, 64]⟩ : Shape).Idx → EReal) (wih : (⟨2, ![192, 64]⟩ : Shape).Idx → EReal) (bih : Fin 192 → EReal)
    (whh : (⟨2, ![192, 64]⟩ : Shape).Idx → EReal) (bhh : Fin 192 → EReal) : (⟨2, ![R, 64]⟩ : Shape).Idx → EReal :=
  fun i => gruRow (rowOf A (i 0).val (idx2_lt0 i)) (rowOf H (i 0).val (idx2_lt0 i)) wih bih whh bhh (i 1).val (idx2_lt1 i)

/-- Row `r` of a matrix depends on `r` as a number only. -/
theorem rowOf_congr {K : Nat} (x : (⟨2, ![R, K]⟩ : Shape).Idx → EReal) {r r' : Nat} (hr : r < R) (hr' : r' < R) (e : r = r') :
    rowOf x r hr = rowOf x r' hr' := by subst e; rfl

theorem mlpRow_congr {e e' : Fin 32 → EReal} {w1 w1' : (⟨2, ![64, 32]⟩ : Shape).Idx → EReal} {b1 b1' : Fin 64 → EReal}
    {w2 w2' : (⟨2, ![64, 64]⟩ : Shape).Idx → EReal} {b2 b2' : Fin 64 → EReal} {c c' : Nat} (hc : c < 64) (hc' : c' < 64)
    (he : e = e') (hw1 : w1 = w1') (hb1 : b1 = b1') (hw2 : w2 = w2') (hb2 : b2 = b2') (hcc : c = c') :
    mlpRow e w1 b1 w2 b2 c hc = mlpRow e' w1' b1' w2' b2' c' hc' := by
  subst he; subst hw1; subst hb1; subst hw2; subst hb2; subst hcc; rfl

theorem gruRow_congr {a a' h h' : Fin 64 → EReal} {wih wih' whh whh' : (⟨2, ![192, 64]⟩ : Shape).Idx → EReal}
    {bih bih' bhh bhh' : Fin 192 → EReal} {c c' : Nat} (hc : c < 64) (hc' : c' < 64)
    (ha : a = a') (hh : h = h') (hwih : wih = wih') (hbih : bih = bih') (hwhh : whh = whh') (hbhh : bhh = bhh') (hcc : c = c') :
    gruRow a h wih bih whh bhh c hc = gruRow a' h' wih' bih' whh' bhh' c' hc' := by
  subst ha; subst hh; subst hwih; subst hbih; subst hwhh; subst hbhh; subst hcc; rfl

/-- A bias stored as a [1, n] row, as a function of the entry. -/
abbrev biasRow {n : Nat} (b : (⟨2, ![1, n]⟩ : Shape).Idx → EReal) : Fin n → EReal := fun c => b (at2 0 c.val Nat.one_pos c.isLt)
/-- A bias stored as an n-vector, as a function of the entry. -/
abbrev biasVec {n : Nat} (b : (⟨1, ![n]⟩ : Shape).Idx → EReal) : Fin n → EReal := fun c => b (ix1 c)

/-- A bias vector laid out as a [1, n] row reads, as a row, as the vector. -/
theorem biasRow_reshape {n : Nat} (b : (⟨1, ![n]⟩ : Shape).Idx → EReal) (h : (⟨1, ![n]⟩ : Shape).ShapeCasts ⟨2, ![1, n]⟩) :
    biasRow (shapeCast ⟨2, ![1, n]⟩ b h) = biasVec b := by
  funext k
  exact shapeCast_apply b h _ (ix1 k) (by
    rw [Shape.rowMajor_val_two, Shape.rowMajor_val_one]
    show k.val = 0 * n + k.val
    omega)

end Cert.Gnn

end
-- ==== Proof.KernelRows.lean ====
/-
  What the two kernel bodies compute, entry by entry, at the ideal values.

  The edge-network body works on a block of 10000 attribute rows and the recurrent-cell body on a block of 2000
  nodes; each stores ONE value, and at entry (r, c) that value is the row function of GnnSpec (`mlpRow`, `gruRow`)
  of row r of the block(s) it loaded.  A change of float format is the identity on the extended reals, the matrix
  products into a zero accumulator are plain sums, and a gate is a slice of 64 columns at offset 0, 64 or 128.
-/
import proofs.«161548_j48455821033925_1_alg».proof.Proof.Gen.KernelIdeal.Skeleton
import proofs.«161548_j48455821033925_1_alg».proof.Proof.GnnSpec

noncomputable section

namespace Cert.KernelIdeal.Rows

open Idealize.ShloMosaic Idealize.ShloMosaic.ValueIdx Cert.KernelIdeal Cert.KernelIdeal.Gen Cert.Lib.DenseRows Cert.Gnn

theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-- The edge-network body's stored value at (r, c). -/
theorem mlp_payload_at (x0 : Vec Ideal S10000x32 .f32) (x1 : Vec Ideal S64x32 .f32) (x2 : Vec Ideal S1x64 .f32)
    (x3 : Vec Ideal S64x64 .f32) (x4 : Vec Ideal S1x64 .f32) (j : S10000x64.Idx) :
    k0_pay1 x0 x1 x2 x3 x4 j
      = mlpRow (rowOf x0 (j 0).val (idx2_lt0 j)) x1 (biasRow x2) x3 (biasRow x4) (j 1).val (idx2_lt1 j) := by
  unfold k0_pay1
  dsimp only
  simp only [shapeCast_self]
  have e1 := fun x w ht b hb j => matmul_bias_at (φ₁ := .bf16) (φ₂ := .bf16) dot_S10000x32_S32x64_S10000x64_1_0_0_1_n_n rfl none x w ht b hb j
  have e2 := fun x w ht b hb j => matmul_bias_at (φ₁ := .bf16) (φ₂ := .bf16) dot_S10000x64_S64x64_S10000x64_1_0_0_1_n_n rfl none x w ht b hb j
  rw [e2]
  unfold mlpRow
  refine congrArg (fun f => denseRow f _ _ _ _) (funext fun k => ?_)
  show max ((addf _ _ : FVec Ideal S10000x64 .f32) (at2 (j 0).val k.val (idx2_lt0 j) k.isLt)) (Ideal.ofBits .f32 0x00000000#32) = _
  rw [e1]
  rfl

/-- The recurrent-cell body's stored value at (r, c), first update step (the state is read as loaded). -/
theorem gru1_payload_at (a h : Vec Ideal S2000x64 .f32) (wih : Vec Ideal S192x64 .f32) (bih : Vec Ideal S1x192 .f32)
    (whh : Vec Ideal S192x64 .f32) (bhh : Vec Ideal S1x192 .f32) (j : S2000x64.Idx) :
    k1_pay1 a h wih bih whh bhh j
      = gruRow (rowOf a (j 0).val (idx2_lt0 j)) (rowOf h (j 0).val (idx2_lt0 j)) wih (biasRow bih) whh (biasRow bhh) (j 1).val (idx2_lt1 j) := by
  unfold k1_pay1
  dsimp only
  simp only [shapeCast_self]
  have e := fun x w ht b hb j => matmul_bias_sum (φ₁ := .bf16) (φ₂ := .bf16) dot_S2000x64_S64x192_S2000x192_1_0_0_1_n_n rfl none x w ht b hb j
  simp only [addf_apply, mulf_apply, subf_apply, broadcast_apply, logistic_at, tanh_at,
    colSlice_at (R := 2000) (W := 192) (n := 64) 0 _ _ (by omega), colSlice_at (R := 2000) (W := 192) (n := 64) 64 _ _ (by omega), colSlice_at (R := 2000) (W := 192) (n := 64) 128 _ _ (by omega), e]
  unfold gruRow
  try simp only [Nat.zero_add]
  have hh : h j = rowOf (R := 2000) (K := 64) h (j 0).val (idx2_lt0 j) ⟨(j 1).val, idx2_lt1 j⟩ := congrArg h (eq_at2 j)
  rw [hh]
  rfl

/-- The recurrent-cell body's stored value at (r, c), later update steps. -/
theorem gru2_payload_at (a h : Vec Ideal S2000x64 .f32) (wih : Vec Ideal S192x64 .f32) (bih : Vec Ideal S1x192 .f32)
    (whh : Vec Ideal S192x64 .f32) (bhh : Vec Ideal S1x192 .f32) (j : S2000x64.Idx) :
    k2_pay1 a h wih bih whh bhh j
      = gruRow (rowOf a (j 0).val (idx2_lt0 j)) (rowOf h (j 0).val (idx2_lt0 j)) wih (biasRow bih) whh (biasRow bhh) (j 1).val (idx2_lt1 j) := by
  unfold k2_pay1
  dsimp only
  simp only [shapeCast_self]
  have e := fun x w ht b hb j => matmul_bias_sum (φ₁ := .bf16) (φ₂ := .bf16) dot_S2000x64_S64x192_S2000x192_1_0_0_1_n_n rfl none x w ht b hb j
  simp only [addf_apply, mulf_apply, subf_apply, broadcast_apply, logistic_at, tanh_at,
    colSlice_at (R := 2000) (W := 192) (n := 64) 0 _ _ (by omega), colSlice_at (R := 2000) (W := 192) (n := 64) 64 _ _ (by omega), colSlice_at (R := 2000) (W := 192) (n := 64) 128 _ _ (by omega), e]
  unfold gruRow
  try simp only [Nat.zero_add]
  have hh : h j = rowOf (R := 2000) (K := 64) h (j 0).val (idx2_lt0 j) ⟨(j 1).val, idx2_lt1 j⟩ := congrArg h (eq_at2 j)
  rw [hh]
  rfl

/-- The third and fourth update steps run the second step's body. -/
theorem k3_pay1_eq : @k3_pay1 Ideal _ = @k2_pay1 Ideal _ := rfl
theorem k4_pay1_eq : @k4_pay1 Ideal _ = @k2_pay1 Ideal _ := rfl

end Cert.KernelIdeal.Rows

end
-- ==== Proof.Edges.lean ====
/-
  The edge network, read as one array.

  Its grid has 100 points; point t works on edges 10000·t … 10000·t + 9999: it loads those rows of the edge
  attributes, both weight matrices and both bias rows whole, and writes those rows of the messages.  Every entry of
  the block it writes is the row function `mlpRow` of the edge's own attribute row, so the blocks are the
  restrictions of ONE array, `mlpArr` of the arrays the call found, and the 100 blocks cover all 1000000 edges.
  Stated at any contents `V` of the buffers on entry.
-/
import proofs.«161548_j48455821033925_1_alg».proof.Proof.Gen.KernelIdeal.Frame
import proofs.«161548_j48455821033925_1_alg».proof.Proof.KernelRows
import Idealize.ShloMosaic.Lib.Pipeline.Value

set_option maxRecDepth 16384

noncomputable section

namespace Cert.KernelIdeal.Edges

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseRows Cert.Gnn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 100 points: the attributes' and the output's blocks move with the point along the
    edge axis; the weights and biases are one block each. -/
theorem idx : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row r of the attribute block at point t is row 10000·t + r of the attribute array. -/
theorem rows_attr (c : Dev nD) (t : Fin cfg0.N) (r : Nat) (hr : r < 10000) :
    rowOf (R := 10000) (K := 32) (iblk0 V c 0 t) r hr
      = rowOf (R := 1000000) (K := 32) (V c main_arg1) (t.val * 10000 + r) (by have ht : t.val < 100 := t.isLt; omega) := by
  obtain ⟨e0, e1, -⟩ := idx t
  funext k
  show V c main_arg1 (((cfg0.win 0).blk t).view.emb (at2 r k.val hr k.isLt)) = V c main_arg1 (at2 (t.val * 10000 + r) k.val _ k.isLt)
  refine congrArg _ (funext fun a => Fin.ext ?_)
  match a with
  | ⟨0, _⟩ => show win0_0.index t (0 : Fin 2) * 10000 + 1 * r = t.val * 10000 + r; rw [e0]; omega
  | ⟨1, _⟩ => show win0_0.index t (1 : Fin 2) * 32 + 1 * k.val = k.val; rw [e1]; omega

/-- The first layer's weights are loaded whole at every point. -/
theorem whole_w1 (c : Dev nD) (t : Fin cfg0.N) (y : S64x32.Idx) : iblk0 V c 1 t y = V c main_arg3 y := by
  obtain ⟨-, -, -, -, e0, e1, -⟩ := idx t
  show V c main_arg3 (((cfg0.win 1).blk t).view.emb y) = V c main_arg3 y
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 32 + 1 * (y 1).val = (y 1).val; rw [e1]; omega

/-- The first layer's bias row is loaded whole at every point. -/
theorem whole_b1 (c : Dev nD) (t : Fin cfg0.N) (y : S1x64.Idx) : iblk0 V c 2 t y = V c main_v4 y := by
  obtain ⟨-, -, -, -, -, -, e0, e1, -⟩ := idx t
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second layer's weights are loaded whole at every point. -/
theorem whole_w2 (c : Dev nD) (t : Fin cfg0.N) (y : S64x64.Idx) : iblk0 V c 3 t y = V c main_arg5 y := by
  obtain ⟨-, -, -, -, -, -, -, -, e0, e1, -⟩ := idx t
  show V c main_arg5 (((cfg0.win 3).blk t).view.emb y) = V c main_arg5 y
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The second layer's bias row is loaded whole at every point. -/
theorem whole_b2 (c : Dev nD) (t : Fin cfg0.N) (y : S1x64.Idx) : iblk0 V c 4 t y = V c main_v5 y := by
  obtain ⟨-, -, -, -, -, -, -, -, -, -, e0, e1⟩ := idx t
  show V c main_v5 (((cfg0.win 4).blk t).view.emb y) = V c main_v5 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The messages as one array of the arrays the call found. -/
abbrev messages (c : Dev nD) : S1000000x64.Idx → EReal :=
  mlpArr (R := 1000000) (V c main_arg1) (V c main_arg3) (biasRow (n := 64) (V c main_v4)) (V c main_arg5) (biasRow (n := 64) (V c main_v5))

/-- What point t writes back is block t of the message array. -/
theorem flushed (c : Dev nD) (t : Fin cfg0.N) :
    (dat0 V c).flushed 5 t = ((cfg0.win 5).blk t).view.read (Elt Ideal) (messages V c) := by
  show (cfg0.win 5).cut (grid0.coords t) ((dat0 V c).after 5 t) = _
  rw [after0_5]
  unfold out0_5
  rw [View.canon_unit_zero hz]
  simp only [View.ld_unit_zero (S := S10000x32) hz, View.ld_unit_zero (S := S64x32) hz, View.ld_unit_zero (S := S1x64) hz, View.ld_unit_zero (S := S64x64) hz]
  obtain ⟨-, -, e4, e5, -⟩ := idx t
  funext j
  show k0_pay1 (iblk0 V c 0 t) (iblk0 V c 1 t) (iblk0 V c 2 t) (iblk0 V c 3 t) (iblk0 V c 4 t) j
    = messages V c (((cfg0.win 5).blk t).view.emb j)
  refine (mlp_payload_at (iblk0 V c 0 t) (iblk0 V c 1 t) (iblk0 V c 2 t) (iblk0 V c 3 t) (iblk0 V c 4 t) j).trans ?_
  have hj0 : (j 0).val < 10000 := (j 0).isLt
  have hj1 : (j 1).val < 64 := (j 1).isLt
  have ht : t.val < 100 := t.isLt
  have er : ((((cfg0.win 5).blk t).view.emb j) 0).val = t.val * 10000 + (j 0).val := by
    show win0_5.index t (0 : Fin 2) * 10000 + 1 * (j 0).val = _; rw [e4]; omega
  have ec : ((((cfg0.win 5).blk t).view.emb j) 1).val = (j 1).val := by
    show win0_5.index t (1 : Fin 2) * 64 + 1 * (j 1).val = _; rw [e5]; omega
  exact mlpRow_congr _ _
    ((rows_attr V c t (j 0).val hj0).trans (rowOf_congr _ _ _ er.symm))
    (funext (whole_w1 V c t)) (funext fun k => whole_b1 V c t _)
    (funext (whole_w2 V c t)) (funext fun k => whole_b2 V c t _) ec.symm

/-- An edge's index is in point t's block iff the edge is one of the point's 10000. -/
theorem mem_blk (t : Fin cfg0.N) (i : S1000000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v6).slice (win0_5.rect t)).set ↔ _
  rw [View.set_slice_whole, Rect.mem_set_unit]
  exact Iff.rfl

/-- Every edge is in the block of the point numbered by its index divided by 10000. -/
theorem cover (i : S1000000x64.Idx) :
    ∃ t : Fin cfg0.N, (cfg0.win 5).flush t = true ∧ i ∈ ((cfg0.win 5).blk t).view.set := by
  have hi0 : (i 0).val < 1000000 := (i 0).isLt
  have hi1 : (i 1).val < 64 := (i 1).isLt
  have hlt : (i 0).val / 10000 < 100 := by omega
  obtain ⟨-, -, e4, e5, -⟩ := idx ⟨(i 0).val / 10000, hlt⟩
  refine ⟨⟨(i 0).val / 10000, hlt⟩, flush0_5 _, ?_⟩
  rw [mem_blk]
  intro a
  match a with
  | ⟨0, _⟩ =>
    show win0_5.index ⟨(i 0).val / 10000, hlt⟩ (0 : Fin 2) * 10000 ≤ (i 0).val ∧ (i 0).val < win0_5.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_5.index ⟨(i 0).val / 10000, hlt⟩ (1 : Fin 2) * 64 ≤ (i 1).val ∧ (i 1).val < win0_5.index ⟨(i 0).val / 10000, hlt⟩ (1 : Fin 2) * 64 + 64
    rw [e5]; omega

/-- The call's output array after its 100 points is the message array. -/
theorem final (c : Dev nD) : (dat0 V c).arrAt 5 cfg0.N = messages V c :=
  (dat0 V c).arrAt_eq_of_cover 5 (messages V c) (fun t _ => flushed V c t) cover

end Cert.KernelIdeal.Edges

end
-- ==== Proof.Step1.lean ====
/-
  Update step 1 of the recurrent cell, read as one array.

  The step's grid has 50 points; point t works on nodes 2000·t … 2000·t + 1999: it loads those rows of the
  aggregated messages and of the state, the two weight matrices and the two bias rows whole, and writes those rows
  of the new state.  Every entry of the block it writes is the row function `gruRow` of the node's own two rows, so
  the blocks are the restrictions of ONE array, `gruArr` of the arrays the step found, and the 50 blocks cover all
  100000 nodes.  Stated at any contents `V` of the buffers on entry.
-/
import proofs.«161548_j48455821033925_1_alg».proof.Proof.Gen.KernelIdeal.Frame
import proofs.«161548_j48455821033925_1_alg».proof.Proof.KernelRows
import Idealize.ShloMosaic.Lib.Pipeline.Value

set_option maxRecDepth 16384

noncomputable section

namespace Cert.KernelIdeal.Step1

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseRows Cert.Gnn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the messages', the state's and the output's blocks move with the point
    along the node axis; the weights and biases are one block each. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row r of the message block at point t is row 2000·t + r of the message array. -/
theorem rows_msg (c : Dev nD) (t : Fin cfg1.N) (r : Nat) (hr : r < 2000) :
    rowOf (R := 2000) (K := 64) (iblk1 V c 0 t) r hr
      = rowOf (R := 100000) (K := 64) (V c main_v17) (t.val * 2000 + r) (by have ht : t.val < 50 := t.isLt; omega) := by
  obtain ⟨e0, e1, -⟩ := idx t
  funext k
  show V c main_v17 (((cfg1.win 0).blk t).view.emb (at2 r k.val hr k.isLt)) = V c main_v17 (at2 (t.val * 2000 + r) k.val _ k.isLt)
  refine congrArg _ (funext fun a => Fin.ext ?_)
  match a with
  | ⟨0, _⟩ => show win1_0.index t (0 : Fin 2) * 2000 + 1 * r = t.val * 2000 + r; rw [e0]; omega
  | ⟨1, _⟩ => show win1_0.index t (1 : Fin 2) * 64 + 1 * k.val = k.val; rw [e1]; omega

/-- Row r of the state block at point t is row 2000·t + r of the state array. -/
theorem rows_state (c : Dev nD) (t : Fin cfg1.N) (r : Nat) (hr : r < 2000) :
    rowOf (R := 2000) (K := 64) (iblk1 V c 1 t) r hr
      = rowOf (R := 100000) (K := 64) (V c main_arg0) (t.val * 2000 + r) (by have ht : t.val < 50 := t.isLt; omega) := by
  obtain ⟨-, -, e0, e1, -⟩ := idx t
  funext k
  show V c main_arg0 (((cfg1.win 1).blk t).view.emb (at2 r k.val hr k.isLt)) = V c main_arg0 (at2 (t.val * 2000 + r) k.val _ k.isLt)
  refine congrArg _ (funext fun a => Fin.ext ?_)
  match a with
  | ⟨0, _⟩ => show win1_1.index t (0 : Fin 2) * 2000 + 1 * r = t.val * 2000 + r; rw [e0]; omega
  | ⟨1, _⟩ => show win1_1.index t (1 : Fin 2) * 64 + 1 * k.val = k.val; rw [e1]; omega

/-- The input weights are loaded whole at every point. -/
theorem whole_wih (c : Dev nD) (t : Fin cfg1.N) (y : S192x64.Idx) : iblk1 V c 2 t y = V c main_arg7 y := by
  obtain ⟨-, -, -, -, -, -, e0, e1, -⟩ := idx t
  show V c main_arg7 (((cfg1.win 2).blk t).view.emb y) = V c main_arg7 y
  refine congrArg _ (funext fun a => Fin.ext ?_)
  match a with
  | ⟨0, _⟩ => show win1_2.index t (0 : Fin 2) * 192 + 1 * (y 0).val = (y 0).val; rw [e0]; omega
  | ⟨1, _⟩ => show win1_2.index t (1 : Fin 2) * 64 + 1 * (y 1).val = (y 1).val; rw [e1]; omega

/-- The input bias row is loaded whole at every point. -/
theorem whole_bih (c : Dev nD) (t : Fin cfg1.N) (y : S1x192.Idx) : iblk1 V c 3 t y = V c main_v18 y := by
  obtain ⟨-, -, -, -, -, -, -, -, e0, e1, -⟩ := idx t
  show V c main_v18 (((cfg1.win 3).blk t).view.emb y) = V c main_v18 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 192 + 1 * (y 1).val = (y 1).val; rw [e1]; omega

/-- The state weights are loaded whole at every point. -/
theorem whole_whh (c : Dev nD) (t : Fin cfg1.N) (y : S192x64.Idx) : iblk1 V c 4 t y = V c main_arg9 y := by
  obtain ⟨-, -, -, -, -, -, -, -, -, -, e0, e1, -⟩ := idx t
  show V c main_arg9 (((cfg1.win 4).blk t).view.emb y) = V c main_arg9 y
  refine congrArg _ (funext fun a => Fin.ext ?_)
  match a with
  | ⟨0, _⟩ => show win1_4.index t (0 : Fin 2) * 192 + 1 * (y 0).val = (y 0).val; rw [e0]; omega
  | ⟨1, _⟩ => show win1_4.index t (1 : Fin 2) * 64 + 1 * (y 1).val = (y 1).val; rw [e1]; omega

/-- The state bias row is loaded whole at every point. -/
theorem whole_bhh (c : Dev nD) (t : Fin cfg1.N) (y : S1x192.Idx) : iblk1 V c 5 t y = V c main_v19 y := by
  obtain ⟨-, -, -, -, -, -, -, -, -, -, -, -, e0, e1⟩ := idx t
  show V c main_v19 (((cfg1.win 5).blk t).view.emb y) = V c main_v19 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 192 + 1 * (y 1).val = (y 1).val; rw [e1]; omega

/-- The new state as one array of the arrays the step found. -/
abbrev newState (c : Dev nD) : S100000x64.Idx → EReal :=
  gruArr (R := 100000) (V c main_v17) (V c main_arg0) (V c main_arg7) (biasRow (n := 192) (V c main_v18)) (V c main_arg9) (biasRow (n := 192) (V c main_v19))

/-- What point t writes back is block t of the new-state array. -/
theorem flushed (c : Dev nD) (t : Fin cfg1.N) :
    (dat1 V c).flushed 6 t = ((cfg1.win 6).blk t).view.read (Elt Ideal) (newState V c) := by
  show (cfg1.win 6).cut (grid1.coords t) ((dat1 V c).after 6 t) = _
  rw [after1_6]
  unfold out1_6
  rw [View.canon_unit_zero hz]
  simp only [View.ld_unit_zero (S := S2000x64) hz, View.ld_unit_zero (S := S192x64) hz, View.ld_unit_zero (S := S1x192) hz]
  obtain ⟨-, -, -, -, e4, e5, -⟩ := idx t
  funext j
  show k1_pay1 (iblk1 V c 0 t) (iblk1 V c 1 t) (iblk1 V c 2 t) (iblk1 V c 3 t) (iblk1 V c 4 t) (iblk1 V c 5 t) j
    = newState V c (((cfg1.win 6).blk t).view.emb j)
  refine (gru1_payload_at (iblk1 V c 0 t) (iblk1 V c 1 t) (iblk1 V c 2 t) (iblk1 V c 3 t) (iblk1 V c 4 t) (iblk1 V c 5 t) j).trans ?_
  have hj0 : (j 0).val < 2000 := (j 0).isLt
  have hj1 : (j 1).val < 64 := (j 1).isLt
  have ht : t.val < 50 := t.isLt
  have er : ((((cfg1.win 6).blk t).view.emb j) 0).val = t.val * 2000 + (j 0).val := by
    show win1_6.index t (0 : Fin 2) * 2000 + 1 * (j 0).val = _; rw [e4]; omega
  have ec : ((((cfg1.win 6).blk t).view.emb j) 1).val = (j 1).val := by
    show win1_6.index t (1 : Fin 2) * 64 + 1 * (j 1).val = _; rw [e5]; omega
  exact gruRow_congr _ _
    ((rows_msg V c t (j 0).val hj0).trans (rowOf_congr _ _ _ er.symm))
    ((rows_state V c t (j 0).val hj0).trans (rowOf_congr _ _ _ er.symm))
    (funext (whole_wih V c t)) (funext fun k => whole_bih V c t _)
    (funext (whole_whh V c t)) (funext fun k => whole_bhh V c t _) ec.symm

/-- A node's index is in point t's block iff the node is one of the point's 2000. -/
theorem mem_blk (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v20).slice (win1_6.rect t)).set ↔ _
  rw [View.set_slice_whole, Rect.mem_set_unit]
  exact Iff.rfl

/-- Every node is in the block of the point numbered by its index divided by 2000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 2000 < 50 := by omega
  obtain ⟨-, -, -, -, e4, e5, -⟩ := idx ⟨(i 0).val / 2000, hlt⟩
  refine ⟨⟨(i 0).val / 2000, hlt⟩, flush1_6 _, ?_⟩
  rw [mem_blk]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_6.index ⟨(i 0).val / 2000, hlt⟩ (1 : Fin 2) * 64 ≤ (i 1).val ∧ (i 1).val < win1_6.index ⟨(i 0).val / 2000, hlt⟩ (1 : Fin 2) * 64 + 64
    rw [e5]; omega

/-- The step's output array after its 50 points is the new-state array. -/
theorem final (c : Dev nD) : (dat1 V c).arrAt 6 cfg1.N = newState V c :=
  (dat1 V c).arrAt_eq_of_cover 6 (newState V c) (fun t _ => flushed V c t) cover

end Cert.KernelIdeal.Step1

end
-- ==== Proof.Step2.lean ====
/-
  Update step 2 of the recurrent cell, read as one array.

  The step's grid has 50 points; point t works on nodes 2000·t … 2000·t + 1999: it loads those rows of the
  aggregated messages and of the state, the two weight matrices and the two bias rows whole, and writes those rows
  of the new state.  Every entry of the block it writes is the row function `gruRow` of the node's own two rows, so
  the blocks are the restrictions of ONE array, `gruArr` of the arrays the step found, and the 50 blocks cover all
  100000 nodes.  Stated at any contents `V` of the buffers on entry.
-/
import proofs.«161548_j48455821033925_1_alg».proof.Proof.Gen.KernelIdeal.Frame
import proofs.«161548_j48455821033925_1_alg».proof.Proof.KernelRows
import Idealize.ShloMosaic.Lib.Pipeline.Value

set_option maxRecDepth 16384

noncomputable section

namespace Cert.KernelIdeal.Step2

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseRows Cert.Gnn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the messages', the state's and the output's blocks move with the point
    along the node axis; the weights and biases are one block each. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row r of the message block at point t is row 2000·t + r of the message array. -/
theorem rows_msg (c : Dev nD) (t : Fin cfg2.N) (r : Nat) (hr : r < 2000) :
    rowOf (R := 2000) (K := 64) (iblk2 V c 0 t) r hr
      = rowOf (R := 100000) (K := 64) (V c main_v31) (t.val * 2000 + r) (by have ht : t.val < 50 := t.isLt; omega) := by
  obtain ⟨e0, e1, -⟩ := idx t
  funext k
  show V c main_v31 (((cfg2.win 0).blk t).view.emb (at2 r k.val hr k.isLt)) = V c main_v31 (at2 (t.val * 2000 + r) k.val _ k.isLt)
  refine congrArg _ (funext fun a => Fin.ext ?_)
  match a with
  | ⟨0, _⟩ => show win2_0.index t (0 : Fin 2) * 2000 + 1 * r = t.val * 2000 + r; rw [e0]; omega
  | ⟨1, _⟩ => show win2_0.index t (1 : Fin 2) * 64 + 1 * k.val = k.val; rw [e1]; omega

/-- Row r of the state block at point t is row 2000·t + r of the state array. -/
theorem rows_state (c : Dev nD) (t : Fin cfg2.N) (r : Nat) (hr : r < 2000) :
    rowOf (R := 2000) (K := 64) (iblk2 V c 1 t) r hr
      = rowOf (R := 100000) (K := 64) (V c main_v20) (t.val * 2000 + r) (by have ht : t.val < 50 := t.isLt; omega) := by
  obtain ⟨-, -, e0, e1, -⟩ := idx t
  funext k
  show V c main_v20 (((cfg2.win 1).blk t).view.emb (at2 r k.val hr k.isLt)) = V c main_v20 (at2 (t.val * 2000 + r) k.val _ k.isLt)
  refine congrArg _ (funext fun a => Fin.ext ?_)
  match a with
  | ⟨0, _⟩ => show win2_1.index t (0 : Fin 2) * 2000 + 1 * r = t.val * 2000 + r; rw [e0]; omega
  | ⟨1, _⟩ => show win2_1.index t (1 : Fin 2) * 64 + 1 * k.val = k.val; rw [e1]; omega

/-- The input weights are loaded whole at every point. -/
theorem whole_wih (c : Dev nD) (t : Fin cfg2.N) (y : S192x64.Idx) : iblk2 V c 2 t y = V c main_arg7 y := by
  obtain ⟨-, -, -, -, -, -, e0, e1, -⟩ := idx t
  show V c main_arg7 (((cfg2.win 2).blk t).view.emb y) = V c main_arg7 y
  refine congrArg _ (funext fun a => Fin.ext ?_)
  match a with
  | ⟨0, _⟩ => show win2_2.index t (0 : Fin 2) * 192 + 1 * (y 0).val = (y 0).val; rw [e0]; omega
  | ⟨1, _⟩ => show win2_2.index t (1 : Fin 2) * 64 + 1 * (y 1).val = (y 1).val; rw [e1]; omega

/-- The input bias row is loaded whole at every point. -/
theorem whole_bih (c : Dev nD) (t : Fin cfg2.N) (y : S1x192.Idx) : iblk2 V c 3 t y = V c main_v32 y := by
  obtain ⟨-, -, -, -, -, -, -, -, e0, e1, -⟩ := idx t
  show V c main_v32 (((cfg2.win 3).blk t).view.emb y) = V c main_v32 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 192 + 1 * (y 1).val = (y 1).val; rw [e1]; omega

/-- The state weights are loaded whole at every point. -/
theorem whole_whh (c : Dev nD) (t : Fin cfg2.N) (y : S192x64.Idx) : iblk2 V c 4 t y = V c main_arg9 y := by
  obtain ⟨-, -, -, -, -, -, -, -, -, -, e0, e1, -⟩ := idx t
  show V c main_arg9 (((cfg2.win 4).blk t).view.emb y) = V c main_arg9 y
  refine congrArg _ (funext fun a => Fin.ext ?_)
  match a with
  | ⟨0, _⟩ => show win2_4.index t (0 : Fin 2) * 192 + 1 * (y 0).val = (y 0).val; rw [e0]; omega
  | ⟨1, _⟩ => show win2_4.index t (1 : Fin 2) * 64 + 1 * (y 1).val = (y 1).val; rw [e1]; omega

/-- The state bias row is loaded whole at every point. -/
theorem whole_bhh (c : Dev nD) (t : Fin cfg2.N) (y : S1x192.Idx) : iblk2 V c 5 t y = V c main_v33 y := by
  obtain ⟨-, -, -, -, -, -, -, -, -, -, -, -, e0, e1⟩ := idx t
  show V c main_v33 (((cfg2.win 5).blk t).view.emb y) = V c main_v33 y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 192 + 1 * (y 1).val = (y 1).val; rw [e1]; omega

/-- The new state as one array of the arrays the step found. -/
abbrev newState (c : Dev nD) : S100000x64.Idx → EReal :=
  gruArr (R := 100000) (V c main_v31) (V c main_v20) (V c main_arg7) (biasRow (n := 192) (V c main_v32)) (V c main_arg9) (biasRow (n := 192) (V c main_v33))

/-- What point t writes back is block t of the new-state array. -/
theorem flushed (c : Dev nD) (t : Fin cfg2.N) :
    (dat2 V c).flushed 6 t = ((cfg2.win 6).blk t).view.read (Elt Ideal) (newState V c) := by
  show (cfg2.win 6).cut (grid2.coords t) ((dat2 V c).after 6 t) = _
  rw [after2_6]
  unfold out2_6
  rw [View.canon_unit_zero hz]
  simp only [View.ld_unit_zero (S := S2000x64) hz, View.ld_unit_zero (S := S192x64) hz, View.ld_unit_zero (S := S1x192) hz]
  obtain ⟨-, -, -, -, e4, e5, -⟩ := idx t
  funext j
  show k2_pay1 (iblk2 V c 0 t) (iblk2 V c 1 t) (iblk2 V c 2 t) (iblk2 V c 3 t) (iblk2 V c 4 t) (iblk2 V c 5 t) j
    = newState V c (((cfg2.win 6).blk t).view.emb j)
  refine (gru2_payload_at (iblk2 V c 0 t) (iblk2 V c 1 t) (iblk2 V c 2 t) (iblk2 V c 3 t) (iblk2 V c 4 t) (iblk2 V c 5 t) j).trans ?_
  have hj0 : (j 0).val < 2000 := (j 0).isLt
  have hj1 : (j 1).val < 64 := (j 1).isLt
  have ht : t.val < 50 := t.isLt
  have er : ((((cfg2.win 6).blk t).view.emb j) 0).val = t.val * 2000 + (j 0).val := by
    show win2_6.index t (0 : Fin 2) * 2000 + 1 * (j 0).val = _; rw [e4]; omega
  have ec : ((((cfg2.win 6).blk t).view.emb j) 1).val = (j 1).val := by
    show win2_6.index t (1 : Fin 2) * 64 + 1 * (j 1).val = _; rw [e5]; omega
  exact gruRow_congr _ _
    ((rows_msg V c t (j 0).val hj0).trans (rowOf_congr _ _ _ er.symm))
    ((rows_state V c t (j 0).val hj0).trans (rowOf_congr _ _ _ er.symm))
    (funext (whole_wih V c t)) (funext fun k => whole_bih V c t _)
    (funext (whole_whh V c t)) (funext fun k => whole_bhh V c t _) ec.symm

/-- A node's index is in point t's block iff the node is one of the point's 2000. -/
theorem mem_blk (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v34).slice (win2_6.rect t)).set ↔ _
  rw [View.set_slice_whole, Rect.mem_set_unit]
  exact Iff.rfl

/-- Every node is in the block of the point numbered by its index divided by 2000. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hlt : (i 0).val / 2000 < 50 := by omega
  obtain ⟨-, -, -, -, e4, e5, -⟩ := idx ⟨(i 0).val / 2000, hlt⟩
  refine ⟨⟨(i 0).val / 2000, hlt⟩, flush2_6 _, ?_⟩
  rw [mem_blk]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_6.index ⟨(i 0).val / 2000, hlt⟩ (1 : Fin 2) * 64 ≤ (i 1).val ∧ (i 1).val < win2_6.index ⟨(i 0).val / 2000, hlt⟩ (1 : Fin 2) * 64 + 64
    rw [e5]; omega

/-- The step's output array after its 50 points is the new-state array. -/
theorem final (c : Dev nD) : (dat2 V c).arrAt 6 cfg2.N = newState V c :=
  (dat2 V c).arrAt_eq_of_cover 6 (newState V c) (fun t _ => flushed V c t) cover

end Cert.KernelIdeal.Step2

end
-- ==== Proof.Step3.lean ====
/-
  Update step 3 of the recurrent cell, read as one array.

  The step's grid has 50 points; point t works on nodes 2000·t … 2000·t + 1999: it loads those rows of the
  aggregated messages and of the state, the two weight matrices and the two bias rows whole, and writes those rows
  of the new state.  Every entry of the block it writes is the row function `gruRow` of the node's own two rows, so
  the blocks are the restrictions of ONE array, `gruArr` of the arrays the step found, and the 50 blocks cover all
  100000 nodes.  Stated at any contents `V` of the buffers on entry.
-/
import proofs.«161548_j48455821033925_1_alg».proof.Proof.Gen.KernelIdeal.Frame
import proofs.«161548_j48455821033925_1_alg».proof.Proof.KernelRows
import Idealize.ShloMosaic.Lib.Pipeline.Value

set_option maxRecDepth 16384

noncomputable section

namespace Cert.KernelIdeal.Step3

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseRows Cert.Gnn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the messages', the state's and the output's blocks move with the point
    along the node axis; the weights and biases are one block each. -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row r of the message block at point t is row 2000·t + r of the message array. -/
theorem rows_msg (c : Dev nD) (t : Fin cfg3.N) (r : Nat) (hr : r < 2000) :
    rowOf (R := 2000) (K := 64) (iblk3 V c 0 t) r hr
      = rowOf (R := 100000) (K := 64) (V c main_v45) (t.val * 2000 + r) (by have ht : t.val < 50 := t.isLt; omega) := by
  obtain ⟨e0, e1, -⟩ := idx t
  funext k
  show V c main_v45 (((cfg3.win 0).blk t).view.emb (at2 r k.val hr k.isLt)) = V c main_v45 (at2 (t.val * 2000 + r) k.val _ k.isLt)
  refine congrArg _ (funext fun a => Fin.ext ?_)
  match a with
  | ⟨0, _⟩ => show win3_0.index t (0 : Fin 2) * 2000 + 1 * r = t.val * 2000 + r; rw [e0]; omega
  | ⟨1, _⟩ => show win3_0.index t (1 : Fin 2) * 64 + 1 * k.val = k.val; rw [e1]; omega

/-- Row r of the state block at point t is row 2000·t + r of the state array. -/
theorem rows_state (c : Dev nD) (t : Fin cfg3.N) (r : Nat) (hr : r < 2000) :
    rowOf (R := 2000) (K := 64) (iblk3 V c 1 t) r hr
      = rowOf (R := 100000) (K := 64) (V c main_v34) (t.val * 2000 + r) (by have ht : t.val < 50 := t.isLt; omega) := by
  obtain ⟨-, -, e0, e1, -⟩ := idx t
  funext k
  show V c main_v34 (((cfg3.win 1).blk t).view.emb (at2 r k.val hr k.isLt)) = V c main_v34 (at2 (t.val * 2000 + r) k.val _ k.isLt)
  refine congrArg _ (funext fun a => Fin.ext ?_)
  match a with
  | ⟨0, _⟩ => show win3_1.index t (0 : Fin 2) * 2000 + 1 * r = t.val * 2000 + r; rw [e0]; omega
  | ⟨1, _⟩ => show win3_1.index t (1 : Fin 2) * 64 + 1 * k.val = k.val; rw [e1]; omega

/-- The input weights are loaded whole at every point. -/
theorem whole_wih (c : Dev nD) (t : Fin cfg3.N) (y : S192x64.Idx) : iblk3 V c 2 t y = V c main_arg7 y := by
  obtain ⟨-, -, -, -, -, -, e0, e1, -⟩ := idx t
  show V c main_arg7 (((cfg3.win 2).blk t).view.emb y) = V c main_arg7 y
  refine congrArg _ (funext fun a => Fin.ext ?_)
  match a with
  | ⟨0, _⟩ => show win3_2.index t (0 : Fin 2) * 192 + 1 * (y 0).val = (y 0).val; rw [e0]; omega
  | ⟨1, _⟩ => show win3_2.index t (1 : Fin 2) * 64 + 1 * (y 1).val = (y 1).val; rw [e1]; omega

/-- The input bias row is loaded whole at every point. -/
theorem whole_bih (c : Dev nD) (t : Fin cfg3.N) (y : S1x192.Idx) : iblk3 V c 3 t y = V c main_v46 y := by
  obtain ⟨-, -, -, -, -, -, -, -, e0, e1, -⟩ := idx t
  show V c main_v46 (((cfg3.win 3).blk t).view.emb y) = V c main_v46 y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 192 + 1 * (y 1).val = (y 1).val; rw [e1]; omega

/-- The state weights are loaded whole at every point. -/
theorem whole_whh (c : Dev nD) (t : Fin cfg3.N) (y : S192x64.Idx) : iblk3 V c 4 t y = V c main_arg9 y := by
  obtain ⟨-, -, -, -, -, -, -, -, -, -, e0, e1, -⟩ := idx t
  show V c main_arg9 (((cfg3.win 4).blk t).view.emb y) = V c main_arg9 y
  refine congrArg _ (funext fun a => Fin.ext ?_)
  match a with
  | ⟨0, _⟩ => show win3_4.index t (0 : Fin 2) * 192 + 1 * (y 0).val = (y 0).val; rw [e0]; omega
  | ⟨1, _⟩ => show win3_4.index t (1 : Fin 2) * 64 + 1 * (y 1).val = (y 1).val; rw [e1]; omega

/-- The state bias row is loaded whole at every point. -/
theorem whole_bhh (c : Dev nD) (t : Fin cfg3.N) (y : S1x192.Idx) : iblk3 V c 5 t y = V c main_v47 y := by
  obtain ⟨-, -, -, -, -, -, -, -, -, -, -, -, e0, e1⟩ := idx t
  show V c main_v47 (((cfg3.win 5).blk t).view.emb y) = V c main_v47 y
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 192 + 1 * (y 1).val = (y 1).val; rw [e1]; omega

/-- The new state as one array of the arrays the step found. -/
abbrev newState (c : Dev nD) : S100000x64.Idx → EReal :=
  gruArr (R := 100000) (V c main_v45) (V c main_v34) (V c main_arg7) (biasRow (n := 192) (V c main_v46)) (V c main_arg9) (biasRow (n := 192) (V c main_v47))

/-- What point t writes back is block t of the new-state array. -/
theorem flushed (c : Dev nD) (t : Fin cfg3.N) :
    (dat3 V c).flushed 6 t = ((cfg3.win 6).blk t).view.read (Elt Ideal) (newState V c) := by
  show (cfg3.win 6).cut (grid3.coords t) ((dat3 V c).after 6 t) = _
  rw [after3_6]
  unfold out3_6
  rw [View.canon_unit_zero hz]
  simp only [View.ld_unit_zero (S := S2000x64) hz, View.ld_unit_zero (S := S192x64) hz, View.ld_unit_zero (S := S1x192) hz]
  obtain ⟨-, -, -, -, e4, e5, -⟩ := idx t
  funext j
  show k3_pay1 (iblk3 V c 0 t) (iblk3 V c 1 t) (iblk3 V c 2 t) (iblk3 V c 3 t) (iblk3 V c 4 t) (iblk3 V c 5 t) j
    = newState V c (((cfg3.win 6).blk t).view.emb j)
  rw [show @k3_pay1 Ideal _ = @k2_pay1 Ideal _ from k3_pay1_eq]
  refine (gru2_payload_at (iblk3 V c 0 t) (iblk3 V c 1 t) (iblk3 V c 2 t) (iblk3 V c 3 t) (iblk3 V c 4 t) (iblk3 V c 5 t) j).trans ?_
  have hj0 : (j 0).val < 2000 := (j 0).isLt
  have hj1 : (j 1).val < 64 := (j 1).isLt
  have ht : t.val < 50 := t.isLt
  have er : ((((cfg3.win 6).blk t).view.emb j) 0).val = t.val * 2000 + (j 0).val := by
    show win3_6.index t (0 : Fin 2) * 2000 + 1 * (j 0).val = _; rw [e4]; omega
  have ec : ((((cfg3.win 6).blk t).view.emb j) 1).val = (j 1).val := by
    show win3_6.index t (1 : Fin 2) * 64 + 1 * (j 1).val = _; rw [e5]; omega
  exact gruRow_congr _ _
    ((rows_msg V c t (j 0).val hj0).trans (rowOf_congr _ _ _ er.symm))
    ((rows_state V c t (j 0).val hj0).trans (rowOf_congr _ _ _ er.symm))
    (funext (whole_wih V c t)) (funext fun k => whole_bih V c t _)
    (funext (whole_whh V c t)) (funext fun k => whole_bhh V c t _) ec.symm

/-- A node's index is in point t's block iff the node is one of the point's 2000. -/
theorem mem_blk (t : Fin cfg3.N) (i : S100000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v48).slice (win3_6.rect t)).set ↔ _
  rw [View.set_slice_whole, Rect.mem_set_unit]
  exact Iff.rfl

/-- Every node is in the block of the point numbered by its index divided by 2000. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hlt : (i 0).val / 2000 < 50 := by omega
  obtain ⟨-, -, -, -, e4, e5, -⟩ := idx ⟨(i 0).val / 2000, hlt⟩
  refine ⟨⟨(i 0).val / 2000, hlt⟩, flush3_6 _, ?_⟩
  rw [mem_blk]
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win3_6.index ⟨(i 0).val / 2000, hlt⟩ (1 : Fin 2) * 64 ≤ (i 1).val ∧ (i 1).val < win3_6.index ⟨(i 0).val / 2000, hlt⟩ (1 : Fin 2) * 64 + 64
    rw [e5]; omega

/-- The step's output array after its 50 points is the new-state array. -/
theorem final (c : Dev nD) : (dat3 V c).arrAt 6 cfg3.N = newState V c :=
  (dat3 V c).arrAt_eq_of_cover 6 (newState V c) (fun t _ => flushed V c t) cover

end Cert.KernelIdeal.Step3

end
-- ==== Proof.Step4.lean ====
/-
  Update step 4 of the recurrent cell, read as one array.

  The step's grid has 50 points; point t works on nodes 2000·t … 2000·t + 1999: it loads those rows of the
  aggregated messages and of the state, the two weight matrices and the two bias rows whole, and writes those rows
  of the new state.  Every entry of the block it writes is the row function `gruRow` of the node's own two rows, so
  the blocks are the restrictions of ONE array, `gruArr` of the arrays the step found, and the 50 blocks cover all
  100000 nodes.  Stated at any contents `V` of the buffers on entry.
-/
import proofs.«161548_j48455821033925_1_alg».proof.Proof.Gen.KernelIdeal.Frame
import proofs.«161548_j48455821033925_1_alg».proof.Proof.KernelRows
import Idealize.ShloMosaic.Lib.Pipeline.Value

set_option maxRecDepth 16384

noncomputable section

namespace Cert.KernelIdeal.Step4

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseRows Cert.Gnn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the messages', the state's and the output's blocks move with the point
    along the node axis; the weights and biases are one block each. -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_6.index t (0 : Fin 2) = t.val ∧ win4_6.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row r of the message block at point t is row 2000·t + r of the message array. -/
theorem rows_msg (c : Dev nD) (t : Fin cfg4.N) (r : Nat) (hr : r < 2000) :
    rowOf (R := 2000) (K := 64) (iblk4 V c 0 t) r hr
      = rowOf (R := 100000) (K := 64) (V c main_v59) (t.val * 2000 + r) (by have ht : t.val < 50 := t.isLt; omega) := by
  obtain ⟨e0, e1, -⟩ := idx t
  funext k
  show V c main_v59 (((cfg4.win 0).blk t).view.emb (at2 r k.val hr k.isLt)) = V c main_v59 (at2 (t.val * 2000 + r) k.val _ k.isLt)
  refine congrArg _ (funext fun a => Fin.ext ?_)
  match a with
  | ⟨0, _⟩ => show win4_0.index t (0 : Fin 2) * 2000 + 1 * r = t.val * 2000 + r; rw [e0]; omega
  | ⟨1, _⟩ => show win4_0.index t (1 : Fin 2) * 64 + 1 * k.val = k.val; rw [e1]; omega

/-- Row r of the state block at point t is row 2000·t + r of the state array. -/
theorem rows_state (c : Dev nD) (t : Fin cfg4.N) (r : Nat) (hr : r < 2000) :
    rowOf (R := 2000) (K := 64) (iblk4 V c 1 t) r hr
      = rowOf (R := 100000) (K := 64) (V c main_v48) (t.val * 2000 + r) (by have ht : t.val < 50 := t.isLt; omega) := by
  obtain ⟨-, -, e0, e1, -⟩ := idx t
  funext k
  show V c main_v48 (((cfg4.win 1).blk t).view.emb (at2 r k.val hr k.isLt)) = V c main_v48 (at2 (t.val * 2000 + r) k.val _ k.isLt)
  refine congrArg _ (funext fun a => Fin.ext ?_)
  match a with
  | ⟨0, _⟩ => show win4_1.index t (0 : Fin 2) * 2000 + 1 * r = t.val * 2000 + r; rw [e0]; omega
  | ⟨1, _⟩ => show win4_1.index t (1 : Fin 2) * 64 + 1 * k.val = k.val; rw [e1]; omega

/-- The input weights are loaded whole at every point. -/
theorem whole_wih (c : Dev nD) (t : Fin cfg4.N) (y : S192x64.Idx) : iblk4 V c 2 t y = V c main_arg7 y := by
  obtain ⟨-, -, -, -, -, -, e0, e1, -⟩ := idx t
  show V c main_arg7 (((cfg4.win 2).blk t).view.emb y) = V c main_arg7 y
  refine congrArg _ (funext fun a => Fin.ext ?_)
  match a with
  | ⟨0, _⟩ => show win4_2.index t (0 : Fin 2) * 192 + 1 * (y 0).val = (y 0).val; rw [e0]; omega
  | ⟨1, _⟩ => show win4_2.index t (1 : Fin 2) * 64 + 1 * (y 1).val = (y 1).val; rw [e1]; omega

/-- The input bias row is loaded whole at every point. -/
theorem whole_bih (c : Dev nD) (t : Fin cfg4.N) (y : S1x192.Idx) : iblk4 V c 3 t y = V c main_v60 y := by
  obtain ⟨-, -, -, -, -, -, -, -, e0, e1, -⟩ := idx t
  show V c main_v60 (((cfg4.win 3).blk t).view.emb y) = V c main_v60 y
  refine congrArg _ (funext fun a => Fin.ext ?_)
  match a with
  | ⟨0, _⟩ => show win4_3.index t (0 : Fin 2) * 1 + 1 * (y 0).val = (y 0).val; rw [e0]; omega
  | ⟨1, _⟩ => show win4_3.index t (1 : Fin 2) * 192 + 1 * (y 1).val = (y 1).val; rw [e1]; omega

/-- The state weights are loaded whole at every point. -/
theorem whole_whh (c : Dev nD) (t : Fin cfg4.N) (y : S192x64.Idx) : iblk4 V c 4 t y = V c main_arg9 y := by
  obtain ⟨-, -, -, -, -, -, -, -, -, -, e0, e1, -⟩ := idx t
  show V c main_arg9 (((cfg4.win 4).blk t).view.emb y) = V c main_arg9 y
  refine congrArg _ (funext fun a => Fin.ext ?_)
  match a with
  | ⟨0, _⟩ => show win4_4.index t (0 : Fin 2) * 192 + 1 * (y 0).val = (y 0).val; rw [e0]; omega
  | ⟨1, _⟩ => show win4_4.index t (1 : Fin 2) * 64 + 1 * (y 1).val = (y 1).val; rw [e1]; omega

/-- The state bias row is loaded whole at every point. -/
theorem whole_bhh (c : Dev nD) (t : Fin cfg4.N) (y : S1x192.Idx) : iblk4 V c 5 t y = V c main_v61 y := by
  obtain ⟨-, -, -, -, -, -, -, -, -, -, -, -, e0, e1⟩ := idx t
  show V c main_v61 (((cfg4.win 5).blk t).view.emb y) = V c main_v61 y
  refine congrArg _ (funext fun a => Fin.ext ?_)
  match a with
  | ⟨0, _⟩ => show win4_5.index t (0 : Fin 2) * 1 + 1 * (y 0).val = (y 0).val; rw [e0]; omega
  | ⟨1, _⟩ => show win4_5.index t (1 : Fin 2) * 192 + 1 * (y 1).val = (y 1).val; rw [e1]; omega

/-- The new state as one array of the arrays the step found. -/
abbrev newState (c : Dev nD) : S100000x64.Idx → EReal :=
  gruArr (R := 100000) (V c main_v59) (V c main_v48) (V c main_arg7) (biasRow (n := 192) (V c main_v60)) (V c main_arg9) (biasRow (n := 192) (V c main_v61))

/-- What point t writes back is block t of the new-state array. -/
theorem flushed (c : Dev nD) (t : Fin cfg4.N) :
    (dat4 V c).flushed 6 t = ((cfg4.win 6).blk t).view.read (Elt Ideal) (newState V c) := by
  show (cfg4.win 6).cut (grid4.coords t) ((dat4 V c).after 6 t) = _
  rw [after4_6]
  unfold out4_6
  rw [View.canon_unit_zero hz]
  simp only [View.ld_unit_zero (S := S2000x64) hz, View.ld_unit_zero (S := S192x64) hz, View.ld_unit_zero (S := S1x192) hz]
  obtain ⟨-, -, -, -, e4, e5, -⟩ := idx t
  funext j
  show k4_pay1 (iblk4 V c 0 t) (iblk4 V c 1 t) (iblk4 V c 2 t) (iblk4 V c 3 t) (iblk4 V c 4 t) (iblk4 V c 5 t) j
    = newState V c (((cfg4.win 6).blk t).view.emb j)
  rw [show @k4_pay1 Ideal _ = @k2_pay1 Ideal _ from k4_pay1_eq]
  refine (gru2_payload_at (iblk4 V c 0 t) (iblk4 V c 1 t) (iblk4 V c 2 t) (iblk4 V c 3 t) (iblk4 V c 4 t) (iblk4 V c 5 t) j).trans ?_
  have hj0 : (j 0).val < 2000 := (j 0).isLt
  have hj1 : (j 1).val < 64 := (j 1).isLt
  have ht : t.val < 50 := t.isLt
  have er : ((((cfg4.win 6).blk t).view.emb j) 0).val = t.val * 2000 + (j 0).val := by
    show win4_6.index t (0 : Fin 2) * 2000 + 1 * (j 0).val = _; rw [e4]; omega
  have ec : ((((cfg4.win 6).blk t).view.emb j) 1).val = (j 1).val := by
    show win4_6.index t (1 : Fin 2) * 64 + 1 * (j 1).val = _; rw [e5]; omega
  exact gruRow_congr _ _
    ((rows_msg V c t (j 0).val hj0).trans (rowOf_congr _ _ _ er.symm))
    ((rows_state V c t (j 0).val hj0).trans (rowOf_congr _ _ _ er.symm))
    (funext (whole_wih V c t)) (funext fun k => whole_bih V c t _)
    (funext (whole_whh V c t)) (funext fun k => whole_bhh V c t _) ec.symm

/-- A node's index is in point t's block iff the node is one of the point's 2000. -/
theorem mem_blk (t : Fin cfg4.N) (i : S100000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v62).slice (win4_6.rect t)).set ↔ _
  rw [View.set_slice_whole, Rect.mem_set_unit]
  exact Iff.rfl

/-- Every node is in the block of the point numbered by its index divided by 2000. -/
theorem cover (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have hlt : (i 0).val / 2000 < 50 := by omega
  obtain ⟨-, -, -, -, e4, e5, -⟩ := idx ⟨(i 0).val / 2000, hlt⟩
  refine ⟨⟨(i 0).val / 2000, hlt⟩, flush4_6 _, ?_⟩
  rw [mem_blk]
  intro a
  match a with
  | ⟨0, _⟩ =>
    show win4_6.index ⟨(i 0).val / 2000, hlt⟩ (0 : Fin 2) * 2000 ≤ (i 0).val ∧ (i 0).val < win4_6.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win4_6.index ⟨(i 0).val / 2000, hlt⟩ (1 : Fin 2) * 64 ≤ (i 1).val ∧ (i 1).val < win4_6.index ⟨(i 0).val / 2000, hlt⟩ (1 : Fin 2) * 64 + 64
    rw [e5]; omega

/-- The step's output array after its 50 points is the new-state array. -/
theorem final (c : Dev nD) : (dat4 V c).arrAt 6 cfg4.N = newState V c :=
  (dat4 V c).arrAt_eq_of_cover 6 (newState V c) (fun t _ => flushed V c t) cover

end Cert.KernelIdeal.Step4

end
-- ==== Proof.KernelChain.lean ====
/-
  What each boundary of the program holds, from the launch to the result.

  Between two calls the host gathers the senders' states, multiplies by the messages and adds up per receiver
  (`aggregate`, kept as one function and never opened), and lays the two bias vectors out as rows.  The index vectors,
  the messages, the weights and the biases are written once and only read afterwards, so every boundary holds them
  unchanged; the state after update step p is `kstep` of the state before it.  The result buffer ends at four steps
  from the launch state.
-/
import proofs.«161548_j48455821033925_1_alg».proof.Proof.Gen.KernelIdeal.Frame
import proofs.«161548_j48455821033925_1_alg».proof.Proof.Edges
import proofs.«161548_j48455821033925_1_alg».proof.Proof.Step1
import proofs.«161548_j48455821033925_1_alg».proof.Proof.Step2
import proofs.«161548_j48455821033925_1_alg».proof.Proof.Step3
import proofs.«161548_j48455821033925_1_alg».proof.Proof.Step4
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Lib.DenseRows Cert.Gnn

/-- The senders' states gathered, multiplied by the messages and added up per receiver, as one function of the receiver
    indices `v1`, the sender indices `v3`, the messages and the state. -/
def aggregate (v1 v3 : IVec S1000000 32) (msg : FVec Ideal S1000000x64 .f32) (h : FVec Ideal S100000x64 .f32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 v1)
    (mulf msg (Host.gather gather_S100000x64_S1000000x1_S1000000x64_1_0_n_n_0_1_164 h
      (broadcastInDim S1000000x1 ![0] bcast_S1000000_S1000000x1_0
        (select (cmpi .slt v3 (broadcastInDim S1000000 ![] bcast_S_S1000000 (constantI S_ 32 0#32)))
          (addi v3 (broadcastInDim S1000000 ![] bcast_S_S1000000 (constantI S_ 32 100000#32))) v3))))

/-- One update step: the cell of every node on the aggregated messages, the biases read from their row layout. -/
def kstep (v1 v3 : IVec S1000000 32) (msg : FVec Ideal S1000000x64 .f32) (h : FVec Ideal S100000x64 .f32)
    (w7 : FVec Ideal S192x64 .f32) (b8 : FVec Ideal S192 .f32) (w9 : FVec Ideal S192x64 .f32) (b10 : FVec Ideal S192 .f32) : FVec Ideal S100000x64 .f32 :=
  gruArr (R := 100000) (aggregate v1 v3 msg h) h w7 (biasRow (n := 192) (shapeCast S1x192 b8 shapeCasts_S192_S1x192)) w9 (biasRow (n := 192) (shapeCast S1x192 b10 shapeCasts_S192_S1x192))

variable (m : (ℓ : Loc nD τ sig) → Buf (Elt Ideal) ℓ) (ρ : Dev nD → PrngReg)

/-- The receiver indices: row 0 of the edge list. -/
def recv (c : Dev nD) : IVec S1000000 32 :=
  shapeCast _ (extractStridedSlice S1x1000000 ![0, 0] (m ((c : Thread nD τ).loc main_arg2)) slices_S2x1000000_S1x1000000_0_0) shapeCasts_S1x1000000_S1000000
/-- The sender indices: row 1 of the edge list. -/
def send (c : Dev nD) : IVec S1000000 32 :=
  shapeCast _ (extractStridedSlice S1x1000000 ![1, 0] (m ((c : Thread nD τ).loc main_arg2)) slices_S2x1000000_S1x1000000_1_0) shapeCasts_S1x1000000_S1000000
/-- The messages: the edge network of every attribute row. -/
def msgs (c : Dev nD) : FVec Ideal S1000000x64 .f32 :=
  mlpArr (R := 1000000) (m ((c : Thread nD τ).loc main_arg1)) (m ((c : Thread nD τ).loc main_arg3))
    (biasRow (n := 64) (shapeCast S1x64 (m ((c : Thread nD τ).loc main_arg4)) shapeCasts_S64_S1x64))
    (m ((c : Thread nD τ).loc main_arg5))
    (biasRow (n := 64) (shapeCast S1x64 (m ((c : Thread nD τ).loc main_arg6)) shapeCasts_S64_S1x64))

/-- The node states: the launch state, then one update step after another. -/
def st0 (c : Dev nD) : FVec Ideal S100000x64 .f32 := m ((c : Thread nD τ).loc main_arg0)
def st1 (c : Dev nD) : FVec Ideal S100000x64 .f32 :=
  kstep (recv m c) (send m c) (msgs m c) (st0 m c) (m ((c : Thread nD τ).loc main_arg7)) (m ((c : Thread nD τ).loc main_arg8)) (m ((c : Thread nD τ).loc main_arg9)) (m ((c : Thread nD τ).loc main_arg10))
def st2 (c : Dev nD) : FVec Ideal S100000x64 .f32 :=
  kstep (recv m c) (send m c) (msgs m c) (st1 m c) (m ((c : Thread nD τ).loc main_arg7)) (m ((c : Thread nD τ).loc main_arg8)) (m ((c : Thread nD τ).loc main_arg9)) (m ((c : Thread nD τ).loc main_arg10))
def st3 (c : Dev nD) : FVec Ideal S100000x64 .f32 :=
  kstep (recv m c) (send m c) (msgs m c) (st2 m c) (m ((c : Thread nD τ).loc main_arg7)) (m ((c : Thread nD τ).loc main_arg8)) (m ((c : Thread nD τ).loc main_arg9)) (m ((c : Thread nD τ).loc main_arg10))
def st4 (c : Dev nD) : FVec Ideal S100000x64 .f32 :=
  kstep (recv m c) (send m c) (msgs m c) (st3 m c) (m ((c : Thread nD τ).loc main_arg7)) (m ((c : Thread nD τ).loc main_arg8)) (m ((c : Thread nD τ).loc main_arg9)) (m ((c : Thread nD τ).loc main_arg10))

/-! ## The first boundaries: the launch, the host lines before the edge network, the edge network -/

theorem at1_main_arg1 (c : Dev nD) : W1 m ρ c (Proc.devRef .tc main_arg1) = m ((c : Thread nD τ).loc main_arg1) := by
  show StableHlo.after hostOps0 (W0 m ρ c) (Proc.devRef .tc main_arg1) = _
  after_results
  try rfl
theorem at1_main_arg3 (c : Dev nD) : W1 m ρ c (Proc.devRef .tc main_arg3) = m ((c : Thread nD τ).loc main_arg3) := by
  show StableHlo.after hostOps0 (W0 m ρ c) (Proc.devRef .tc main_arg3) = _
  after_results
  try rfl
theorem at1_main_arg5 (c : Dev nD) : W1 m ρ c (Proc.devRef .tc main_arg5) = m ((c : Thread nD τ).loc main_arg5) := by
  show StableHlo.after hostOps0 (W0 m ρ c) (Proc.devRef .tc main_arg5) = _
  after_results
  try rfl
theorem at1_main_v4 (c : Dev nD) : W1 m ρ c (Proc.devRef .tc main_v4) = shapeCast S1x64 (m ((c : Thread nD τ).loc main_arg4)) shapeCasts_S64_S1x64 := by
  show StableHlo.after hostOps0 (W0 m ρ c) (Proc.devRef .tc main_v4) = _
  after_results
  try rfl
theorem at1_main_v5 (c : Dev nD) : W1 m ρ c (Proc.devRef .tc main_v5) = shapeCast S1x64 (m ((c : Thread nD τ).loc main_arg6)) shapeCasts_S64_S1x64 := by
  show StableHlo.after hostOps0 (W0 m ρ c) (Proc.devRef .tc main_v5) = _
  after_results
  try rfl
theorem at1_main_arg0 (c : Dev nD) : W1 m ρ c (Proc.devRef .tc main_arg0) = m ((c : Thread nD τ).loc main_arg0) := by
  show StableHlo.after hostOps0 (W0 m ρ c) (Proc.devRef .tc main_arg0) = _
  after_results
  try rfl
theorem at1_main_arg7 (c : Dev nD) : W1 m ρ c (Proc.devRef .tc main_arg7) = m ((c : Thread nD τ).loc main_arg7) := by
  show StableHlo.after hostOps0 (W0 m ρ c) (Proc.devRef .tc main_arg7) = _
  after_results
  try rfl
theorem at1_main_arg8 (c : Dev nD) : W1 m ρ c (Proc.devRef .tc main_arg8) = m ((c : Thread nD τ).loc main_arg8) := by
  show StableHlo.after hostOps0 (W0 m ρ c) (Proc.devRef .tc main_arg8) = _
  after_results
  try rfl
theorem at1_main_arg9 (c : Dev nD) : W1 m ρ c (Proc.devRef .tc main_arg9) = m ((c : Thread nD τ).loc main_arg9) := by
  show StableHlo.after hostOps0 (W0 m ρ c) (Proc.devRef .tc main_arg9) = _
  after_results
  try rfl
theorem at1_main_arg10 (c : Dev nD) : W1 m ρ c (Proc.devRef .tc main_arg10) = m ((c : Thread nD τ).loc main_arg10) := by
  show StableHlo.after hostOps0 (W0 m ρ c) (Proc.devRef .tc main_arg10) = _
  after_results
  try rfl
theorem at1_main_v1 (c : Dev nD) : W1 m ρ c (Proc.devRef .tc main_v1) = recv m c := by
  show StableHlo.after hostOps0 (W0 m ρ c) (Proc.devRef .tc main_v1) = _
  after_results
  try rfl
theorem at1_main_v3 (c : Dev nD) : W1 m ρ c (Proc.devRef .tc main_v3) = send m c := by
  show StableHlo.after hostOps0 (W0 m ρ c) (Proc.devRef .tc main_v3) = _
  after_results
  try rfl

theorem at2_main_v6 (c : Dev nD) : W2 m ρ c (Proc.devRef .tc main_v6) = msgs m c := by
  refine (W2_arr m ρ c 5).trans ?_
  rw [Edges.final (V1 m ρ) c]
  show mlpArr (R := 1000000) (W1 m ρ c (Proc.devRef .tc main_arg1)) (W1 m ρ c (Proc.devRef .tc main_arg3)) (biasRow (n := 64) (W1 m ρ c (Proc.devRef .tc main_v4)))
    (W1 m ρ c (Proc.devRef .tc main_arg5)) (biasRow (n := 64) (W1 m ρ c (Proc.devRef .tc main_v5))) = _
  rw [at1_main_arg1, at1_main_arg3, at1_main_v4, at1_main_arg5, at1_main_v5]
  rfl
theorem at2_main_arg0 (c : Dev nD) : W2 m ρ c (Proc.devRef .tc main_arg0) = m ((c : Thread nD τ).loc main_arg0) :=
  (W2_of_ne m ρ c main_arg0 (by decide)).trans (at1_main_arg0 m ρ c)
theorem at2_main_arg7 (c : Dev nD) : W2 m ρ c (Proc.devRef .tc main_arg7) = m ((c : Thread nD τ).loc main_arg7) :=
  (W2_of_ne m ρ c main_arg7 (by decide)).trans (at1_main_arg7 m ρ c)
theorem at2_main_arg8 (c : Dev nD) : W2 m ρ c (Proc.devRef .tc main_arg8) = m ((c : Thread nD τ).loc main_arg8) :=
  (W2_of_ne m ρ c main_arg8 (by decide)).trans (at1_main_arg8 m ρ c)
theorem at2_main_arg9 (c : Dev nD) : W2 m ρ c (Proc.devRef .tc main_arg9) = m ((c : Thread nD τ).loc main_arg9) :=
  (W2_of_ne m ρ c main_arg9 (by decide)).trans (at1_main_arg9 m ρ c)
theorem at2_main_arg10 (c : Dev nD) : W2 m ρ c (Proc.devRef .tc main_arg10) = m ((c : Thread nD τ).loc main_arg10) :=
  (W2_of_ne m ρ c main_arg10 (by decide)).trans (at1_main_arg10 m ρ c)
theorem at2_main_v1 (c : Dev nD) : W2 m ρ c (Proc.devRef .tc main_v1) = recv m c :=
  (W2_of_ne m ρ c main_v1 (by decide)).trans (at1_main_v1 m ρ c)
theorem at2_main_v3 (c : Dev nD) : W2 m ρ c (Proc.devRef .tc main_v3) = send m c :=
  (W2_of_ne m ρ c main_v3 (by decide)).trans (at1_main_v3 m ρ c)

/-! ## Update step 1: the host lines before it, then the call -/

set_option maxHeartbeats 2000000 in
theorem mid1_msg (c : Dev nD) : W3 m ρ c (Proc.devRef .tc main_v17) = aggregate (recv m c) (send m c) (msgs m c) (st0 m c) := by
  show StableHlo.after hostOps1 (W2 m ρ c) (Proc.devRef .tc main_v17) = _
  after_results
  rw [at2_main_v1, at2_main_v3, at2_main_v6, at2_main_arg0]
  rfl
theorem mid1_state (c : Dev nD) : W3 m ρ c (Proc.devRef .tc main_arg0) = st0 m c := by
  show StableHlo.after hostOps1 (W2 m ρ c) (Proc.devRef .tc main_arg0) = _
  after_results
  exact at2_main_arg0 m ρ c
theorem mid1_wih (c : Dev nD) : W3 m ρ c (Proc.devRef .tc main_arg7) = m ((c : Thread nD τ).loc main_arg7) := by
  show StableHlo.after hostOps1 (W2 m ρ c) (Proc.devRef .tc main_arg7) = _
  after_results
  exact at2_main_arg7 m ρ c
theorem mid1_whh (c : Dev nD) : W3 m ρ c (Proc.devRef .tc main_arg9) = m ((c : Thread nD τ).loc main_arg9) := by
  show StableHlo.after hostOps1 (W2 m ρ c) (Proc.devRef .tc main_arg9) = _
  after_results
  exact at2_main_arg9 m ρ c
theorem mid1_bih (c : Dev nD) : W3 m ρ c (Proc.devRef .tc main_v18) = shapeCast S1x192 (m ((c : Thread nD τ).loc main_arg8)) shapeCasts_S192_S1x192 := by
  show StableHlo.after hostOps1 (W2 m ρ c) (Proc.devRef .tc main_v18) = _
  after_results
  rw [at2_main_arg8]
  rfl
theorem mid1_bhh (c : Dev nD) : W3 m ρ c (Proc.devRef .tc main_v19) = shapeCast S1x192 (m ((c : Thread nD τ).loc main_arg10)) shapeCasts_S192_S1x192 := by
  show StableHlo.after hostOps1 (W2 m ρ c) (Proc.devRef .tc main_v19) = _
  after_results
  rw [at2_main_arg10]
  rfl
theorem at4_main_v20 (c : Dev nD) : W4 m ρ c (Proc.devRef .tc main_v20) = st1 m c := by
  refine (W4_arr m ρ c 6).trans ?_
  rw [Step1.final (V3 m ρ) c]
  show gruArr (R := 100000) (W3 m ρ c (Proc.devRef .tc main_v17)) (W3 m ρ c (Proc.devRef .tc main_arg0)) (W3 m ρ c (Proc.devRef .tc main_arg7))
    (biasRow (n := 192) (W3 m ρ c (Proc.devRef .tc main_v18))) (W3 m ρ c (Proc.devRef .tc main_arg9)) (biasRow (n := 192) (W3 m ρ c (Proc.devRef .tc main_v19))) = _
  rw [mid1_msg, mid1_state, mid1_wih, mid1_bih, mid1_whh, mid1_bhh]
  rfl
theorem at4_main_arg0 (c : Dev nD) : W4 m ρ c (Proc.devRef .tc main_arg0) = m ((c : Thread nD τ).loc main_arg0) :=
  ((W4_arr m ρ c 1).trans (((dat1 (V3 m ρ) c).arrAt_in 1 rfl _).trans (A_eq1 (V3 m ρ) c 1))).trans ((by
    show StableHlo.after hostOps1 (W2 m ρ c) (Proc.devRef .tc main_arg0) = W2 m ρ c (Proc.devRef .tc main_arg0)
    after_results
    try rfl : W3 m ρ c (Proc.devRef .tc main_arg0) = W2 m ρ c (Proc.devRef .tc main_arg0)).trans (at2_main_arg0 m ρ c))
theorem at4_main_arg7 (c : Dev nD) : W4 m ρ c (Proc.devRef .tc main_arg7) = m ((c : Thread nD τ).loc main_arg7) :=
  ((W4_arr m ρ c 2).trans (((dat1 (V3 m ρ) c).arrAt_in 2 rfl _).trans (A_eq1 (V3 m ρ) c 2))).trans ((by
    show StableHlo.after hostOps1 (W2 m ρ c) (Proc.devRef .tc main_arg7) = W2 m ρ c (Proc.devRef .tc main_arg7)
    after_results
    try rfl : W3 m ρ c (Proc.devRef .tc main_arg7) = W2 m ρ c (Proc.devRef .tc main_arg7)).trans (at2_main_arg7 m ρ c))
theorem at4_main_arg8 (c : Dev nD) : W4 m ρ c (Proc.devRef .tc main_arg8) = m ((c : Thread nD τ).loc main_arg8) :=
  (W4_of_ne m ρ c main_arg8 (by decide)).trans ((by
    show StableHlo.after hostOps1 (W2 m ρ c) (Proc.devRef .tc main_arg8) = W2 m ρ c (Proc.devRef .tc main_arg8)
    after_results
    try rfl : W3 m ρ c (Proc.devRef .tc main_arg8) = W2 m ρ c (Proc.devRef .tc main_arg8)).trans (at2_main_arg8 m ρ c))
theorem at4_main_arg9 (c : Dev nD) : W4 m ρ c (Proc.devRef .tc main_arg9) = m ((c : Thread nD τ).loc main_arg9) :=
  ((W4_arr m ρ c 4).trans (((dat1 (V3 m ρ) c).arrAt_in 4 rfl _).trans (A_eq1 (V3 m ρ) c 4))).trans ((by
    show StableHlo.after hostOps1 (W2 m ρ c) (Proc.devRef .tc main_arg9) = W2 m ρ c (Proc.devRef .tc main_arg9)
    after_results
    try rfl : W3 m ρ c (Proc.devRef .tc main_arg9) = W2 m ρ c (Proc.devRef .tc main_arg9)).trans (at2_main_arg9 m ρ c))
theorem at4_main_arg10 (c : Dev nD) : W4 m ρ c (Proc.devRef .tc main_arg10) = m ((c : Thread nD τ).loc main_arg10) :=
  (W4_of_ne m ρ c main_arg10 (by decide)).trans ((by
    show StableHlo.after hostOps1 (W2 m ρ c) (Proc.devRef .tc main_arg10) = W2 m ρ c (Proc.devRef .tc main_arg10)
    after_results
    try rfl : W3 m ρ c (Proc.devRef .tc main_arg10) = W2 m ρ c (Proc.devRef .tc main_arg10)).trans (at2_main_arg10 m ρ c))
theorem at4_main_v1 (c : Dev nD) : W4 m ρ c (Proc.devRef .tc main_v1) = recv m c :=
  (W4_of_ne m ρ c main_v1 (by decide)).trans ((by
    show StableHlo.after hostOps1 (W2 m ρ c) (Proc.devRef .tc main_v1) = W2 m ρ c (Proc.devRef .tc main_v1)
    after_results
    try rfl : W3 m ρ c (Proc.devRef .tc main_v1) = W2 m ρ c (Proc.devRef .tc main_v1)).trans (at2_main_v1 m ρ c))
theorem at4_main_v3 (c : Dev nD) : W4 m ρ c (Proc.devRef .tc main_v3) = send m c :=
  (W4_of_ne m ρ c main_v3 (by decide)).trans ((by
    show StableHlo.after hostOps1 (W2 m ρ c) (Proc.devRef .tc main_v3) = W2 m ρ c (Proc.devRef .tc main_v3)
    after_results
    try rfl : W3 m ρ c (Proc.devRef .tc main_v3) = W2 m ρ c (Proc.devRef .tc main_v3)).trans (at2_main_v3 m ρ c))
theorem at4_main_v6 (c : Dev nD) : W4 m ρ c (Proc.devRef .tc main_v6) = msgs m c :=
  (W4_of_ne m ρ c main_v6 (by decide)).trans ((by
    show StableHlo.after hostOps1 (W2 m ρ c) (Proc.devRef .tc main_v6) = W2 m ρ c (Proc.devRef .tc main_v6)
    after_results
    try rfl : W3 m ρ c (Proc.devRef .tc main_v6) = W2 m ρ c (Proc.devRef .tc main_v6)).trans (at2_main_v6 m ρ c))

/-! ## Update step 2: the host lines before it, then the call -/

set_option maxHeartbeats 2000000 in
theorem mid2_msg (c : Dev nD) : W5 m ρ c (Proc.devRef .tc main_v31) = aggregate (recv m c) (send m c) (msgs m c) (st1 m c) := by
  show StableHlo.after hostOps2 (W4 m ρ c) (Proc.devRef .tc main_v31) = _
  after_results
  rw [at4_main_v1, at4_main_v3, at4_main_v6, at4_main_v20]
  rfl
theorem mid2_state (c : Dev nD) : W5 m ρ c (Proc.devRef .tc main_v20) = st1 m c := by
  show StableHlo.after hostOps2 (W4 m ρ c) (Proc.devRef .tc main_v20) = _
  after_results
  exact at4_main_v20 m ρ c
theorem mid2_wih (c : Dev nD) : W5 m ρ c (Proc.devRef .tc main_arg7) = m ((c : Thread nD τ).loc main_arg7) := by
  show StableHlo.after hostOps2 (W4 m ρ c) (Proc.devRef .tc main_arg7) = _
  after_results
  exact at4_main_arg7 m ρ c
theorem mid2_whh (c : Dev nD) : W5 m ρ c (Proc.devRef .tc main_arg9) = m ((c : Thread nD τ).loc main_arg9) := by
  show StableHlo.after hostOps2 (W4 m ρ c) (Proc.devRef .tc main_arg9) = _
  after_results
  exact at4_main_arg9 m ρ c
theorem mid2_bih (c : Dev nD) : W5 m ρ c (Proc.devRef .tc main_v32) = shapeCast S1x192 (m ((c : Thread nD τ).loc main_arg8)) shapeCasts_S192_S1x192 := by
  show StableHlo.after hostOps2 (W4 m ρ c) (Proc.devRef .tc main_v32) = _
  after_results
  rw [at4_main_arg8]
  rfl
theorem mid2_bhh (c : Dev nD) : W5 m ρ c (Proc.devRef .tc main_v33) = shapeCast S1x192 (m ((c : Thread nD τ).loc main_arg10)) shapeCasts_S192_S1x192 := by
  show StableHlo.after hostOps2 (W4 m ρ c) (Proc.devRef .tc main_v33) = _
  after_results
  rw [at4_main_arg10]
  rfl
theorem at6_main_v34 (c : Dev nD) : W6 m ρ c (Proc.devRef .tc main_v34) = st2 m c := by
  refine (W6_arr m ρ c 6).trans ?_
  rw [Step2.final (V5 m ρ) c]
  show gruArr (R := 100000) (W5 m ρ c (Proc.devRef .tc main_v31)) (W5 m ρ c (Proc.devRef .tc main_v20)) (W5 m ρ c (Proc.devRef .tc main_arg7))
    (biasRow (n := 192) (W5 m ρ c (Proc.devRef .tc main_v32))) (W5 m ρ c (Proc.devRef .tc main_arg9)) (biasRow (n := 192) (W5 m ρ c (Proc.devRef .tc main_v33))) = _
  rw [mid2_msg, mid2_state, mid2_wih, mid2_bih, mid2_whh, mid2_bhh]
  rfl
theorem at6_main_arg0 (c : Dev nD) : W6 m ρ c (Proc.devRef .tc main_arg0) = m ((c : Thread nD τ).loc main_arg0) :=
  (W6_of_ne m ρ c main_arg0 (by decide)).trans ((by
    show StableHlo.after hostOps2 (W4 m ρ c) (Proc.devRef .tc main_arg0) = W4 m ρ c (Proc.devRef .tc main_arg0)
    after_results
    try rfl : W5 m ρ c (Proc.devRef .tc main_arg0) = W4 m ρ c (Proc.devRef .tc main_arg0)).trans (at4_main_arg0 m ρ c))
theorem at6_main_arg7 (c : Dev nD) : W6 m ρ c (Proc.devRef .tc main_arg7) = m ((c : Thread nD τ).loc main_arg7) :=
  ((W6_arr m ρ c 2).trans (((dat2 (V5 m ρ) c).arrAt_in 2 rfl _).trans (A_eq2 (V5 m ρ) c 2))).trans ((by
    show StableHlo.after hostOps2 (W4 m ρ c) (Proc.devRef .tc main_arg7) = W4 m ρ c (Proc.devRef .tc main_arg7)
    after_results
    try rfl : W5 m ρ c (Proc.devRef .tc main_arg7) = W4 m ρ c (Proc.devRef .tc main_arg7)).trans (at4_main_arg7 m ρ c))
theorem at6_main_arg8 (c : Dev nD) : W6 m ρ c (Proc.devRef .tc main_arg8) = m ((c : Thread nD τ).loc main_arg8) :=
  (W6_of_ne m ρ c main_arg8 (by decide)).trans ((by
    show StableHlo.after hostOps2 (W4 m ρ c) (Proc.devRef .tc main_arg8) = W4 m ρ c (Proc.devRef .tc main_arg8)
    after_results
    try rfl : W5 m ρ c (Proc.devRef .tc main_arg8) = W4 m ρ c (Proc.devRef .tc main_arg8)).trans (at4_main_arg8 m ρ c))
theorem at6_main_arg9 (c : Dev nD) : W6 m ρ c (Proc.devRef .tc main_arg9) = m ((c : Thread nD τ).loc main_arg9) :=
  ((W6_arr m ρ c 4).trans (((dat2 (V5 m ρ) c).arrAt_in 4 rfl _).trans (A_eq2 (V5 m ρ) c 4))).trans ((by
    show StableHlo.after hostOps2 (W4 m ρ c) (Proc.devRef .tc main_arg9) = W4 m ρ c (Proc.devRef .tc main_arg9)
    after_results
    try rfl : W5 m ρ c (Proc.devRef .tc main_arg9) = W4 m ρ c (Proc.devRef .tc main_arg9)).trans (at4_main_arg9 m ρ c))
theorem at6_main_arg10 (c : Dev nD) : W6 m ρ c (Proc.devRef .tc main_arg10) = m ((c : Thread nD τ).loc main_arg10) :=
  (W6_of_ne m ρ c main_arg10 (by decide)).trans ((by
    show StableHlo.after hostOps2 (W4 m ρ c) (Proc.devRef .tc main_arg10) = W4 m ρ c (Proc.devRef .tc main_arg10)
    after_results
    try rfl : W5 m ρ c (Proc.devRef .tc main_arg10) = W4 m ρ c (Proc.devRef .tc main_arg10)).trans (at4_main_arg10 m ρ c))
theorem at6_main_v1 (c : Dev nD) : W6 m ρ c (Proc.devRef .tc main_v1) = recv m c :=
  (W6_of_ne m ρ c main_v1 (by decide)).trans ((by
    show StableHlo.after hostOps2 (W4 m ρ c) (Proc.devRef .tc main_v1) = W4 m ρ c (Proc.devRef .tc main_v1)
    after_results
    try rfl : W5 m ρ c (Proc.devRef .tc main_v1) = W4 m ρ c (Proc.devRef .tc main_v1)).trans (at4_main_v1 m ρ c))
theorem at6_main_v3 (c : Dev nD) : W6 m ρ c (Proc.devRef .tc main_v3) = send m c :=
  (W6_of_ne m ρ c main_v3 (by decide)).trans ((by
    show StableHlo.after hostOps2 (W4 m ρ c) (Proc.devRef .tc main_v3) = W4 m ρ c (Proc.devRef .tc main_v3)
    after_results
    try rfl : W5 m ρ c (Proc.devRef .tc main_v3) = W4 m ρ c (Proc.devRef .tc main_v3)).trans (at4_main_v3 m ρ c))
theorem at6_main_v6 (c : Dev nD) : W6 m ρ c (Proc.devRef .tc main_v6) = msgs m c :=
  (W6_of_ne m ρ c main_v6 (by decide)).trans ((by
    show StableHlo.after hostOps2 (W4 m ρ c) (Proc.devRef .tc main_v6) = W4 m ρ c (Proc.devRef .tc main_v6)
    after_results
    try rfl : W5 m ρ c (Proc.devRef .tc main_v6) = W4 m ρ c (Proc.devRef .tc main_v6)).trans (at4_main_v6 m ρ c))

/-! ## Update step 3: the host lines before it, then the call -/

set_option maxHeartbeats 2000000 in
theorem mid3_msg (c : Dev nD) : W7 m ρ c (Proc.devRef .tc main_v45) = aggregate (recv m c) (send m c) (msgs m c) (st2 m c) := by
  show StableHlo.after hostOps3 (W6 m ρ c) (Proc.devRef .tc main_v45) = _
  after_results
  rw [at6_main_v1, at6_main_v3, at6_main_v6, at6_main_v34]
  rfl
theorem mid3_state (c : Dev nD) : W7 m ρ c (Proc.devRef .tc main_v34) = st2 m c := by
  show StableHlo.after hostOps3 (W6 m ρ c) (Proc.devRef .tc main_v34) = _
  after_results
  exact at6_main_v34 m ρ c
theorem mid3_wih (c : Dev nD) : W7 m ρ c (Proc.devRef .tc main_arg7) = m ((c : Thread nD τ).loc main_arg7) := by
  show StableHlo.after hostOps3 (W6 m ρ c) (Proc.devRef .tc main_arg7) = _
  after_results
  exact at6_main_arg7 m ρ c
theorem mid3_whh (c : Dev nD) : W7 m ρ c (Proc.devRef .tc main_arg9) = m ((c : Thread nD τ).loc main_arg9) := by
  show StableHlo.after hostOps3 (W6 m ρ c) (Proc.devRef .tc main_arg9) = _
  after_results
  exact at6_main_arg9 m ρ c
theorem mid3_bih (c : Dev nD) : W7 m ρ c (Proc.devRef .tc main_v46) = shapeCast S1x192 (m ((c : Thread nD τ).loc main_arg8)) shapeCasts_S192_S1x192 := by
  show StableHlo.after hostOps3 (W6 m ρ c) (Proc.devRef .tc main_v46) = _
  after_results
  rw [at6_main_arg8]
  rfl
theorem mid3_bhh (c : Dev nD) : W7 m ρ c (Proc.devRef .tc main_v47) = shapeCast S1x192 (m ((c : Thread nD τ).loc main_arg10)) shapeCasts_S192_S1x192 := by
  show StableHlo.after hostOps3 (W6 m ρ c) (Proc.devRef .tc main_v47) = _
  after_results
  rw [at6_main_arg10]
  rfl
theorem at8_main_v48 (c : Dev nD) : W8 m ρ c (Proc.devRef .tc main_v48) = st3 m c := by
  refine (W8_arr m ρ c 6).trans ?_
  rw [Step3.final (V7 m ρ) c]
  show gruArr (R := 100000) (W7 m ρ c (Proc.devRef .tc main_v45)) (W7 m ρ c (Proc.devRef .tc main_v34)) (W7 m ρ c (Proc.devRef .tc main_arg7))
    (biasRow (n := 192) (W7 m ρ c (Proc.devRef .tc main_v46))) (W7 m ρ c (Proc.devRef .tc main_arg9)) (biasRow (n := 192) (W7 m ρ c (Proc.devRef .tc main_v47))) = _
  rw [mid3_msg, mid3_state, mid3_wih, mid3_bih, mid3_whh, mid3_bhh]
  rfl
theorem at8_main_arg0 (c : Dev nD) : W8 m ρ c (Proc.devRef .tc main_arg0) = m ((c : Thread nD τ).loc main_arg0) :=
  (W8_of_ne m ρ c main_arg0 (by decide)).trans ((by
    show StableHlo.after hostOps3 (W6 m ρ c) (Proc.devRef .tc main_arg0) = W6 m ρ c (Proc.devRef .tc main_arg0)
    after_results
    try rfl : W7 m ρ c (Proc.devRef .tc main_arg0) = W6 m ρ c (Proc.devRef .tc main_arg0)).trans (at6_main_arg0 m ρ c))
theorem at8_main_arg7 (c : Dev nD) : W8 m ρ c (Proc.devRef .tc main_arg7) = m ((c : Thread nD τ).loc main_arg7) :=
  ((W8_arr m ρ c 2).trans (((dat3 (V7 m ρ) c).arrAt_in 2 rfl _).trans (A_eq3 (V7 m ρ) c 2))).trans ((by
    show StableHlo.after hostOps3 (W6 m ρ c) (Proc.devRef .tc main_arg7) = W6 m ρ c (Proc.devRef .tc main_arg7)
    after_results
    try rfl : W7 m ρ c (Proc.devRef .tc main_arg7) = W6 m ρ c (Proc.devRef .tc main_arg7)).trans (at6_main_arg7 m ρ c))
theorem at8_main_arg8 (c : Dev nD) : W8 m ρ c (Proc.devRef .tc main_arg8) = m ((c : Thread nD τ).loc main_arg8) :=
  (W8_of_ne m ρ c main_arg8 (by decide)).trans ((by
    show StableHlo.after hostOps3 (W6 m ρ c) (Proc.devRef .tc main_arg8) = W6 m ρ c (Proc.devRef .tc main_arg8)
    after_results
    try rfl : W7 m ρ c (Proc.devRef .tc main_arg8) = W6 m ρ c (Proc.devRef .tc main_arg8)).trans (at6_main_arg8 m ρ c))
theorem at8_main_arg9 (c : Dev nD) : W8 m ρ c (Proc.devRef .tc main_arg9) = m ((c : Thread nD τ).loc main_arg9) :=
  ((W8_arr m ρ c 4).trans (((dat3 (V7 m ρ) c).arrAt_in 4 rfl _).trans (A_eq3 (V7 m ρ) c 4))).trans ((by
    show StableHlo.after hostOps3 (W6 m ρ c) (Proc.devRef .tc main_arg9) = W6 m ρ c (Proc.devRef .tc main_arg9)
    after_results
    try rfl : W7 m ρ c (Proc.devRef .tc main_arg9) = W6 m ρ c (Proc.devRef .tc main_arg9)).trans (at6_main_arg9 m ρ c))
theorem at8_main_arg10 (c : Dev nD) : W8 m ρ c (Proc.devRef .tc main_arg10) = m ((c : Thread nD τ).loc main_arg10) :=
  (W8_of_ne m ρ c main_arg10 (by decide)).trans ((by
    show StableHlo.after hostOps3 (W6 m ρ c) (Proc.devRef .tc main_arg10) = W6 m ρ c (Proc.devRef .tc main_arg10)
    after_results
    try rfl : W7 m ρ c (Proc.devRef .tc main_arg10) = W6 m ρ c (Proc.devRef .tc main_arg10)).trans (at6_main_arg10 m ρ c))
theorem at8_main_v1 (c : Dev nD) : W8 m ρ c (Proc.devRef .tc main_v1) = recv m c :=
  (W8_of_ne m ρ c main_v1 (by decide)).trans ((by
    show StableHlo.after hostOps3 (W6 m ρ c) (Proc.devRef .tc main_v1) = W6 m ρ c (Proc.devRef .tc main_v1)
    after_results
    try rfl : W7 m ρ c (Proc.devRef .tc main_v1) = W6 m ρ c (Proc.devRef .tc main_v1)).trans (at6_main_v1 m ρ c))
theorem at8_main_v3 (c : Dev nD) : W8 m ρ c (Proc.devRef .tc main_v3) = send m c :=
  (W8_of_ne m ρ c main_v3 (by decide)).trans ((by
    show StableHlo.after hostOps3 (W6 m ρ c) (Proc.devRef .tc main_v3) = W6 m ρ c (Proc.devRef .tc main_v3)
    after_results
    try rfl : W7 m ρ c (Proc.devRef .tc main_v3) = W6 m ρ c (Proc.devRef .tc main_v3)).trans (at6_main_v3 m ρ c))
theorem at8_main_v6 (c : Dev nD) : W8 m ρ c (Proc.devRef .tc main_v6) = msgs m c :=
  (W8_of_ne m ρ c main_v6 (by decide)).trans ((by
    show StableHlo.after hostOps3 (W6 m ρ c) (Proc.devRef .tc main_v6) = W6 m ρ c (Proc.devRef .tc main_v6)
    after_results
    try rfl : W7 m ρ c (Proc.devRef .tc main_v6) = W6 m ρ c (Proc.devRef .tc main_v6)).trans (at6_main_v6 m ρ c))

/-! ## Update step 4: the host lines before it, then the call -/

set_option maxHeartbeats 2000000 in
theorem mid4_msg (c : Dev nD) : W9 m ρ c (Proc.devRef .tc main_v59) = aggregate (recv m c) (send m c) (msgs m c) (st3 m c) := by
  show StableHlo.after hostOps4 (W8 m ρ c) (Proc.devRef .tc main_v59) = _
  after_results
  rw [at8_main_v1, at8_main_v3, at8_main_v6, at8_main_v48]
  rfl
theorem mid4_state (c : Dev nD) : W9 m ρ c (Proc.devRef .tc main_v48) = st3 m c := by
  show StableHlo.after hostOps4 (W8 m ρ c) (Proc.devRef .tc main_v48) = _
  after_results
  exact at8_main_v48 m ρ c
theorem mid4_wih (c : Dev nD) : W9 m ρ c (Proc.devRef .tc main_arg7) = m ((c : Thread nD τ).loc main_arg7) := by
  show StableHlo.after hostOps4 (W8 m ρ c) (Proc.devRef .tc main_arg7) = _
  after_results
  exact at8_main_arg7 m ρ c
theorem mid4_whh (c : Dev nD) : W9 m ρ c (Proc.devRef .tc main_arg9) = m ((c : Thread nD τ).loc main_arg9) := by
  show StableHlo.after hostOps4 (W8 m ρ c) (Proc.devRef .tc main_arg9) = _
  after_results
  exact at8_main_arg9 m ρ c
theorem mid4_bih (c : Dev nD) : W9 m ρ c (Proc.devRef .tc main_v60) = shapeCast S1x192 (m ((c : Thread nD τ).loc main_arg8)) shapeCasts_S192_S1x192 := by
  show StableHlo.after hostOps4 (W8 m ρ c) (Proc.devRef .tc main_v60) = _
  after_results
  rw [at8_main_arg8]
  rfl
theorem mid4_bhh (c : Dev nD) : W9 m ρ c (Proc.devRef .tc main_v61) = shapeCast S1x192 (m ((c : Thread nD τ).loc main_arg10)) shapeCasts_S192_S1x192 := by
  show StableHlo.after hostOps4 (W8 m ρ c) (Proc.devRef .tc main_v61) = _
  after_results
  rw [at8_main_arg10]
  rfl
theorem at10_main_v62 (c : Dev nD) : W10 m ρ c (Proc.devRef .tc main_v62) = st4 m c := by
  refine (W10_arr m ρ c 6).trans ?_
  rw [Step4.final (V9 m ρ) c]
  show gruArr (R := 100000) (W9 m ρ c (Proc.devRef .tc main_v59)) (W9 m ρ c (Proc.devRef .tc main_v48)) (W9 m ρ c (Proc.devRef .tc main_arg7))
    (biasRow (n := 192) (W9 m ρ c (Proc.devRef .tc main_v60))) (W9 m ρ c (Proc.devRef .tc main_arg9)) (biasRow (n := 192) (W9 m ρ c (Proc.devRef .tc main_v61))) = _
  rw [mid4_msg, mid4_state, mid4_wih, mid4_bih, mid4_whh, mid4_bhh]
  rfl

end Cert.KernelIdeal.Chain

end
-- ==== Proof.RefSide.lean ====
/-
  The reference program's stages, as the row functions of GnnSpec.

  The reference computes the messages once by the host's two dense layers with a rectifier between them, and then
  four times: gathers the senders' states, multiplies by the messages, adds them up per receiver, and applies the
  recurrent cell by host operations.  Here: the host's edge network is `mlpArr`, the host's cell is `gruArr` of its
  two inputs, the gather / multiply / scatter-add chain is kept as ONE function `aggregate` that is never opened,
  and the reference's result is four update steps of these functions from the launch state.
-/
import proofs.«161548_j48455821033925_1_alg».proof.Proof.Gen.ReferenceIdeal
import Idealize.ShloMosaic.PureOps.Ideal.Laws
import Idealize.ShloMosaic.Lib.Pipeline.Value
import proofs.«161548_j48455821033925_1_alg».proof.Proof.GnnSpec

noncomputable section

namespace Cert.ReferenceIdeal.Bridge

open Idealize.ShloMosaic Idealize.ShloMosaic.ValueIdx Cert.ReferenceIdeal Cert.ReferenceIdeal.Gen Cert.Lib.DenseRows Cert.Gnn

theorem hostDivf_at {s : Shape} (x y : FVec Ideal s .f32) (i : s.Idx) : Host.divf x y i = Ideal.div (x i) (y i) := rfl
theorem hostNegf_at {s : Shape} (x : FVec Ideal s .f32) (i : s.Idx) : Host.negf x i = -(x i) := rfl
theorem hostExp_at {s : Shape} (x : FVec Ideal s .f32) (i : s.Idx) : Host.exp x i = Ideal.exp (x i) := rfl
theorem hostTanh_at {s : Shape} (x : FVec Ideal s .f32) (i : s.Idx) : Host.tanh x i = Ideal.tanh (x i) := rfl
/-- A scalar float word broadcast over an array reads as the word everywhere. -/
theorem splat_at {t : Shape} (h : S_.BroadcastsInDim t ![]) (w : BitVec 32) (i : t.Idx) :
    broadcastInDim t ![] h (constant (F := Ideal) S_ .f32 w) i = Ideal.ofBits .f32 w := rfl

/-- The host's edge network: two dense layers, a rectifier between them. -/
def hostMlp (x1 : FVec Ideal S1000000x32 .f32) (x3 : FVec Ideal S64x32 .f32) (x4 : FVec Ideal S64 .f32) (x5 : FVec Ideal S64x64 .f32) (x6 : FVec Ideal S64 .f32) :
    FVec Ideal S1000000x64 .f32 :=
  addf (Host.dotGeneral dot_S1000000x64_S64x64_S1000000x64_1_0_0_1_n_n none
      (maximumf
        (addf (Host.dotGeneral dot_S1000000x32_S32x64_S1000000x64_1_0_0_1_n_n none x1 (transpose S32x64 [1, 0] x3 transposes_S64x32_S32x64_1_0))
          (broadcastInDim S1000000x64 ![0, 1] bcast_S1x64_S1000000x64_0_1 (broadcastInDim S1x64 ![1] bcast_S64_S1x64_1 x4)))
        (broadcastInDim S1000000x64 ![] bcast_S_S1000000x64 (constant S_ .f32 0x00000000#32)))
      (transpose S64x64 [1, 0] x5 transposes_S64x64_S64x64_1_0))
    (broadcastInDim S1000000x64 ![0, 1] bcast_S1x64_S1000000x64_0_1 (broadcastInDim S1x64 ![1] bcast_S64_S1x64_1 x6))

/-- The host's edge network is the edge network of every row. -/
theorem hostMlp_eq (x1 : FVec Ideal S1000000x32 .f32) (x3 : FVec Ideal S64x32 .f32) (x4 : FVec Ideal S64 .f32) (x5 : FVec Ideal S64x64 .f32) (x6 : FVec Ideal S64 .f32) :
    hostMlp x1 x3 x4 x5 x6 = mlpArr (R := 1000000) x1 x3 (biasVec (n := 64) x4) x5 (biasVec (n := 64) x6) := by
  funext i
  unfold hostMlp mlpArr mlpRow
  have e1 := fun x w ht b h1 h2 j => dotGeneral_bias_at (φ₁ := .f32) (φ₂ := .f32) dot_S1000000x32_S32x64_S1000000x64_1_0_0_1_n_n rfl none .single x w ht b h1 h2 j
  have e2 := fun x w ht b h1 h2 j => dotGeneral_bias_at (φ₁ := .f32) (φ₂ := .f32) dot_S1000000x64_S64x64_S1000000x64_1_0_0_1_n_n rfl none .single x w ht b h1 h2 j
  rw [e2]
  refine congrArg (fun f => denseRow f _ _ _ _) (funext fun k => ?_)
  show max ((addf _ _ : FVec Ideal S1000000x64 .f32) (at2 (i 0).val k.val (idx2_lt0 i) k.isLt)) (Ideal.ofBits .f32 0x00000000#32) = _
  rw [e1]
  try rfl

/-- The host's recurrent cell, from the aggregated messages and the state. -/
def hostCell (agg h : FVec Ideal S100000x64 .f32) (w7 : FVec Ideal S192x64 .f32) (b8 : FVec Ideal S192 .f32) (w9 : FVec Ideal S192x64 .f32) (b10 : FVec Ideal S192 .f32) :
    FVec Ideal S100000x64 .f32 :=
  let gi : FVec Ideal S100000x192 .f32 := addf (Host.dotGeneral dot_S100000x64_S64x192_S100000x192_1_0_0_1_n_n none agg (transpose S64x192 [1, 0] w7 transposes_S192x64_S64x192_1_0))
    (broadcastInDim S100000x192 ![0, 1] bcast_S1x192_S100000x192_0_1 (broadcastInDim S1x192 ![1] bcast_S192_S1x192_1 b8))
  let gh : FVec Ideal S100000x192 .f32 := addf (Host.dotGeneral dot_S100000x64_S64x192_S100000x192_1_0_0_1_n_n none h (transpose S64x192 [1, 0] w9 transposes_S192x64_S64x192_1_0))
    (broadcastInDim S100000x192 ![0, 1] bcast_S1x192_S100000x192_0_1 (broadcastInDim S1x192 ![1] bcast_S192_S1x192_1 b10))
  let one : FVec Ideal S100000x64 .f32 := broadcastInDim S100000x64 ![] bcast_S_S100000x64 (constant S_ .f32 0x3F800000#32)
  let r : FVec Ideal S100000x64 .f32 := Host.divf one (addf one (Host.exp (Host.negf
    (addf (extractStridedSlice S100000x64 ![0, 0] gi slices_S100000x192_S100000x64_0_0) (extractStridedSlice S100000x64 ![0, 0] gh slices_S100000x192_S100000x64_0_0)))))
  let z : FVec Ideal S100000x64 .f32 := Host.divf one (addf one (Host.exp (Host.negf
    (addf (extractStridedSlice S100000x64 ![0, 64] gi slices_S100000x192_S100000x64_0_64) (extractStridedSlice S100000x64 ![0, 64] gh slices_S100000x192_S100000x64_0_64)))))
  let n : FVec Ideal S100000x64 .f32 := Host.tanh (addf (extractStridedSlice S100000x64 ![0, 128] gi slices_S100000x192_S100000x64_0_128)
    (mulf r (extractStridedSlice S100000x64 ![0, 128] gh slices_S100000x192_S100000x64_0_128)))
  addf (mulf (subf one z) n) (mulf z h)

/-- The host's cell is the recurrent cell of every node. -/
theorem hostCell_eq (agg h : FVec Ideal S100000x64 .f32) (w7 : FVec Ideal S192x64 .f32) (b8 : FVec Ideal S192 .f32) (w9 : FVec Ideal S192x64 .f32) (b10 : FVec Ideal S192 .f32) :
    hostCell agg h w7 b8 w9 b10 = gruArr (R := 100000) agg h w7 (biasVec (n := 192) b8) w9 (biasVec (n := 192) b10) := by
  funext i
  unfold hostCell gruArr
  dsimp only
  have e := fun x w ht b h1 h2 j => dotGeneral_bias_sum (φ₁ := .f32) (φ₂ := .f32) dot_S100000x64_S64x192_S100000x192_1_0_0_1_n_n rfl none .single x w ht b h1 h2 j
  have hone : ∀ i : S100000x64.Idx, broadcastInDim S100000x64 ![] bcast_S_S100000x64 (constant (F := Ideal) S_ .f32 0x3F800000#32) i = oneW := fun _ => rfl
  simp only [addf_apply, mulf_apply, subf_apply, hostDivf_at, hostNegf_at, hostExp_at, hostTanh_at, hone,
    colSlice_at (R := 100000) (W := 192) (n := 64) 0 _ _ (by omega), colSlice_at (R := 100000) (W := 192) (n := 64) 64 _ _ (by omega), colSlice_at (R := 100000) (W := 192) (n := 64) 128 _ _ (by omega), e, logistic_eq]
  unfold gruRow
  try simp only [Nat.zero_add]
  have hh : h i = rowOf (R := 100000) (K := 64) h (i 0).val (idx2_lt0 i) ⟨(i 1).val, idx2_lt1 i⟩ := congrArg h (eq_at2 i)
  rw [hh]
  try rfl

/-- The senders' states gathered, multiplied by the messages and added up per receiver: the host operations the two
    programs share, as one function of the receiver indices `v1`, the sender indices `v3`, the messages and the state. -/
def aggregate (v1 v3 : IVec S1000000 32) (msg : FVec Ideal S1000000x64 .f32) (h : FVec Ideal S100000x64 .f32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 v1)
    (mulf msg (Host.gather gather_S100000x64_S1000000x1_S1000000x64_1_0_n_n_0_1_164 h
      (broadcastInDim S1000000x1 ![0] bcast_S1000000_S1000000x1_0
        (select (cmpi .slt v3 (broadcastInDim S1000000 ![] bcast_S_S1000000 (constantI S_ 32 0#32)))
          (addi v3 (broadcastInDim S1000000 ![] bcast_S_S1000000 (constantI S_ 32 100000#32))) v3))))

/-- One update step of the host: aggregate, then the cell. -/
def hostStep (v1 v3 : IVec S1000000 32) (msg : FVec Ideal S1000000x64 .f32) (h : FVec Ideal S100000x64 .f32)
    (w7 : FVec Ideal S192x64 .f32) (b8 : FVec Ideal S192 .f32) (w9 : FVec Ideal S192x64 .f32) (b10 : FVec Ideal S192 .f32) : FVec Ideal S100000x64 .f32 :=
  hostCell (aggregate v1 v3 msg h) h w7 b8 w9 b10

/-- One update step as the mathematics: the cell of every node on the aggregated messages. -/
def step (v1 v3 : IVec S1000000 32) (msg : FVec Ideal S1000000x64 .f32) (h : FVec Ideal S100000x64 .f32)
    (w7 : FVec Ideal S192x64 .f32) (b8 : FVec Ideal S192 .f32) (w9 : FVec Ideal S192x64 .f32) (b10 : FVec Ideal S192 .f32) : FVec Ideal S100000x64 .f32 :=
  gruArr (R := 100000) (aggregate v1 v3 msg h) h w7 (biasVec (n := 192) b8) w9 (biasVec (n := 192) b10)

theorem hostStep_eq (v1 v3 : IVec S1000000 32) (msg : FVec Ideal S1000000x64 .f32) (h : FVec Ideal S100000x64 .f32)
    (w7 : FVec Ideal S192x64 .f32) (b8 : FVec Ideal S192 .f32) (w9 : FVec Ideal S192x64 .f32) (b10 : FVec Ideal S192 .f32) :
    hostStep v1 v3 msg h w7 b8 w9 b10 = step v1 v3 msg h w7 b8 w9 b10 := hostCell_eq _ _ _ _ _ _

/-- The receiver indices: row 0 of the edge list. -/
def recvOf (x2 : IVec S2x1000000 32) : IVec S1000000 32 :=
  shapeCast _ (extractStridedSlice S1x1000000 ![0, 0] x2 slices_S2x1000000_S1x1000000_0_0) shapeCasts_S1x1000000_S1000000
/-- The sender indices: row 1 of the edge list. -/
def sendOf (x2 : IVec S2x1000000 32) : IVec S1000000 32 :=
  shapeCast _ (extractStridedSlice S1x1000000 ![1, 0] x2 slices_S2x1000000_S1x1000000_1_0) shapeCasts_S1x1000000_S1000000

variable (x0 : FVec Ideal S100000x64 .f32) (x1 : FVec Ideal S1000000x32 .f32) (x2 : IVec S2x1000000 32) (x3 : FVec Ideal S64x32 .f32) (x4 : FVec Ideal S64 .f32)
  (x5 : FVec Ideal S64x64 .f32) (x6 : FVec Ideal S64 .f32) (x7 : FVec Ideal S192x64 .f32) (x8 : FVec Ideal S192 .f32) (x9 : FVec Ideal S192x64 .f32) (x10 : FVec Ideal S192 .f32)

/-- The reference's result: four update steps from the launch state, on the messages of the edge network. -/
def result : FVec Ideal S100000x64 .f32 :=
  let v1 := recvOf x2
  let v3 := sendOf x2
  let msg : FVec Ideal S1000000x64 .f32 := mlpArr (R := 1000000) x1 x3 (biasVec (n := 64) x4) x5 (biasVec (n := 64) x6)
  step v1 v3 msg (step v1 v3 msg (step v1 v3 msg (step v1 v3 msg x0 x7 x8 x9 x10) x7 x8 x9 x10) x7 x8 x9 x10) x7 x8 x9 x10

end Cert.ReferenceIdeal.Bridge

end
-- ==== Proof.RefChain.lean ====
/-
  The reference's run, read stage by stage.

  Its 245 host operations are the index vectors and the edge network (17 operations, `ops0`) and four update steps of
  57 operations each (`ops1` … `ops4`).  The buffers after each stage are named (`R1` … `R5`): the index vectors, the messages and the
  arguments are written once and only read afterwards, and the state after an update step is `hostStep` of the
  state before it, that is, the recurrent cell of every node on the aggregated messages.  So the result buffer ends at
  four update steps from the launch state, and the arguments end as launched.
-/
import proofs.«161548_j48455821033925_1_alg».proof.Proof.RefRunP
import proofs.«161548_j48455821033925_1_alg».proof.Proof.RefSide

set_option maxRecDepth 16384

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.Bridge Cert.Gnn

/-- The contents after two lines run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (c : Dev nD)

/-- The buffers after each stage. -/
def R1 : Valuation τ sig (Elt Ideal) := after ops0 (launchContents m c)
def R2 : Valuation τ sig (Elt Ideal) := after ops1 (R1 m c)
def R3 : Valuation τ sig (Elt Ideal) := after ops2 (R2 m c)
def R4 : Valuation τ sig (Elt Ideal) := after ops3 (R3 m c)
def R5 : Valuation τ sig (Elt Ideal) := after ops4 (R4 m c)

theorem after_ops : after ops (launchContents m c) = R5 m c := by
  rw [ops_split, after_append, after_append, after_append, after_append]
  rfl

/-- The messages: the edge network of every attribute row. -/
def msgR : FVec Ideal S1000000x64 .f32 :=
  mlpArr (R := 1000000) (m ((c.tc : Thread nD τ).loc main_arg1)) (m ((c.tc : Thread nD τ).loc main_arg3)) (biasVec (n := 64) (m ((c.tc : Thread nD τ).loc main_arg4))) (m ((c.tc : Thread nD τ).loc main_arg5)) (biasVec (n := 64) (m ((c.tc : Thread nD τ).loc main_arg6)))

/-- The node states: the launch state, then one update step after another. -/
def rst0 : FVec Ideal S100000x64 .f32 := m ((c.tc : Thread nD τ).loc main_arg0)
def rst1 : FVec Ideal S100000x64 .f32 :=
  step (recvOf (m ((c.tc : Thread nD τ).loc main_arg2))) (sendOf (m ((c.tc : Thread nD τ).loc main_arg2))) (msgR m c) (rst0 m c) (m ((c.tc : Thread nD τ).loc main_arg7)) (m ((c.tc : Thread nD τ).loc main_arg8)) (m ((c.tc : Thread nD τ).loc main_arg9)) (m ((c.tc : Thread nD τ).loc main_arg10))
def rst2 : FVec Ideal S100000x64 .f32 :=
  step (recvOf (m ((c.tc : Thread nD τ).loc main_arg2))) (sendOf (m ((c.tc : Thread nD τ).loc main_arg2))) (msgR m c) (rst1 m c) (m ((c.tc : Thread nD τ).loc main_arg7)) (m ((c.tc : Thread nD τ).loc main_arg8)) (m ((c.tc : Thread nD τ).loc main_arg9)) (m ((c.tc : Thread nD τ).loc main_arg10))
def rst3 : FVec Ideal S100000x64 .f32 :=
  step (recvOf (m ((c.tc : Thread nD τ).loc main_arg2))) (sendOf (m ((c.tc : Thread nD τ).loc main_arg2))) (msgR m c) (rst2 m c) (m ((c.tc : Thread nD τ).loc main_arg7)) (m ((c.tc : Thread nD τ).loc main_arg8)) (m ((c.tc : Thread nD τ).loc main_arg9)) (m ((c.tc : Thread nD τ).loc main_arg10))
def rst4 : FVec Ideal S100000x64 .f32 :=
  step (recvOf (m ((c.tc : Thread nD τ).loc main_arg2))) (sendOf (m ((c.tc : Thread nD τ).loc main_arg2))) (msgR m c) (rst3 m c) (m ((c.tc : Thread nD τ).loc main_arg7)) (m ((c.tc : Thread nD τ).loc main_arg8)) (m ((c.tc : Thread nD τ).loc main_arg9)) (m ((c.tc : Thread nD τ).loc main_arg10))

/-! ## After the first stage -/

theorem r1_main_arg0 : R1 m c (Proc.devRef .tc main_arg0) = m ((c.tc : Thread nD τ).loc main_arg0) := by
  show after ops0 (launchContents m c) (Proc.devRef .tc main_arg0) = _
  after_results
  try rfl
theorem r1_main_arg1 : R1 m c (Proc.devRef .tc main_arg1) = m ((c.tc : Thread nD τ).loc main_arg1) := by
  show after ops0 (launchContents m c) (Proc.devRef .tc main_arg1) = _
  after_results
  try rfl
theorem r1_main_arg2 : R1 m c (Proc.devRef .tc main_arg2) = m ((c.tc : Thread nD τ).loc main_arg2) := by
  show after ops0 (launchContents m c) (Proc.devRef .tc main_arg2) = _
  after_results
  try rfl
theorem r1_main_arg3 : R1 m c (Proc.devRef .tc main_arg3) = m ((c.tc : Thread nD τ).loc main_arg3) := by
  show after ops0 (launchContents m c) (Proc.devRef .tc main_arg3) = _
  after_results
  try rfl
theorem r1_main_arg4 : R1 m c (Proc.devRef .tc main_arg4) = m ((c.tc : Thread nD τ).loc main_arg4) := by
  show after ops0 (launchContents m c) (Proc.devRef .tc main_arg4) = _
  after_results
  try rfl
theorem r1_main_arg5 : R1 m c (Proc.devRef .tc main_arg5) = m ((c.tc : Thread nD τ).loc main_arg5) := by
  show after ops0 (launchContents m c) (Proc.devRef .tc main_arg5) = _
  after_results
  try rfl
theorem r1_main_arg6 : R1 m c (Proc.devRef .tc main_arg6) = m ((c.tc : Thread nD τ).loc main_arg6) := by
  show after ops0 (launchContents m c) (Proc.devRef .tc main_arg6) = _
  after_results
  try rfl
theorem r1_main_arg7 : R1 m c (Proc.devRef .tc main_arg7) = m ((c.tc : Thread nD τ).loc main_arg7) := by
  show after ops0 (launchContents m c) (Proc.devRef .tc main_arg7) = _
  after_results
  try rfl
theorem r1_main_arg8 : R1 m c (Proc.devRef .tc main_arg8) = m ((c.tc : Thread nD τ).loc main_arg8) := by
  show after ops0 (launchContents m c) (Proc.devRef .tc main_arg8) = _
  after_results
  try rfl
theorem r1_main_arg9 : R1 m c (Proc.devRef .tc main_arg9) = m ((c.tc : Thread nD τ).loc main_arg9) := by
  show after ops0 (launchContents m c) (Proc.devRef .tc main_arg9) = _
  after_results
  try rfl
theorem r1_main_arg10 : R1 m c (Proc.devRef .tc main_arg10) = m ((c.tc : Thread nD τ).loc main_arg10) := by
  show after ops0 (launchContents m c) (Proc.devRef .tc main_arg10) = _
  after_results
  try rfl
theorem r1_main_v1 : R1 m c (Proc.devRef .tc main_v1) = recvOf (m ((c.tc : Thread nD τ).loc main_arg2)) := by
  show after ops0 (launchContents m c) (Proc.devRef .tc main_v1) = _
  after_results
  try rfl
theorem r1_main_v3 : R1 m c (Proc.devRef .tc main_v3) = sendOf (m ((c.tc : Thread nD τ).loc main_arg2)) := by
  show after ops0 (launchContents m c) (Proc.devRef .tc main_v3) = _
  after_results
  try rfl
theorem r1_main_v14 : R1 m c (Proc.devRef .tc main_v14) = msgR m c := by
  have h : R1 m c (Proc.devRef .tc main_v14) = hostMlp (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
    show after ops0 (launchContents m c) (Proc.devRef .tc main_v14) = _
    after_results
    rfl
  rw [h, hostMlp_eq]
  rfl

/-! ## Update step 1 -/

theorem r2_main_v63 : R2 m c (Proc.devRef .tc main_v63) = rst1 m c := by
  have h : R2 m c (Proc.devRef .tc main_v63)
      = hostStep (R1 m c (Proc.devRef .tc main_v1)) (R1 m c (Proc.devRef .tc main_v3)) (R1 m c (Proc.devRef .tc main_v14)) (R1 m c (Proc.devRef .tc main_arg0))
          (R1 m c (Proc.devRef .tc main_arg7)) (R1 m c (Proc.devRef .tc main_arg8)) (R1 m c (Proc.devRef .tc main_arg9)) (R1 m c (Proc.devRef .tc main_arg10)) := by
    show after ops1 (R1 m c) (Proc.devRef .tc main_v63) = _
    after_results_simp
    rfl
  rw [h, r1_main_v1, r1_main_v3, r1_main_v14, r1_main_arg0, r1_main_arg7, r1_main_arg8, r1_main_arg9, r1_main_arg10, hostStep_eq]
  rfl
theorem r2_main_arg0 : R2 m c (Proc.devRef .tc main_arg0) = m ((c.tc : Thread nD τ).loc main_arg0) :=
  (by show after ops1 (R1 m c) (Proc.devRef .tc main_arg0) = R1 m c (Proc.devRef .tc main_arg0)
      after_results
      try rfl : R2 m c (Proc.devRef .tc main_arg0) = R1 m c (Proc.devRef .tc main_arg0)).trans (r1_main_arg0 m c)
theorem r2_main_arg1 : R2 m c (Proc.devRef .tc main_arg1) = m ((c.tc : Thread nD τ).loc main_arg1) :=
  (by show after ops1 (R1 m c) (Proc.devRef .tc main_arg1) = R1 m c (Proc.devRef .tc main_arg1)
      after_results
      try rfl : R2 m c (Proc.devRef .tc main_arg1) = R1 m c (Proc.devRef .tc main_arg1)).trans (r1_main_arg1 m c)
theorem r2_main_arg2 : R2 m c (Proc.devRef .tc main_arg2) = m ((c.tc : Thread nD τ).loc main_arg2) :=
  (by show after ops1 (R1 m c) (Proc.devRef .tc main_arg2) = R1 m c (Proc.devRef .tc main_arg2)
      after_results
      try rfl : R2 m c (Proc.devRef .tc main_arg2) = R1 m c (Proc.devRef .tc main_arg2)).trans (r1_main_arg2 m c)
theorem r2_main_arg3 : R2 m c (Proc.devRef .tc main_arg3) = m ((c.tc : Thread nD τ).loc main_arg3) :=
  (by show after ops1 (R1 m c) (Proc.devRef .tc main_arg3) = R1 m c (Proc.devRef .tc main_arg3)
      after_results
      try rfl : R2 m c (Proc.devRef .tc main_arg3) = R1 m c (Proc.devRef .tc main_arg3)).trans (r1_main_arg3 m c)
theorem r2_main_arg4 : R2 m c (Proc.devRef .tc main_arg4) = m ((c.tc : Thread nD τ).loc main_arg4) :=
  (by show after ops1 (R1 m c) (Proc.devRef .tc main_arg4) = R1 m c (Proc.devRef .tc main_arg4)
      after_results
      try rfl : R2 m c (Proc.devRef .tc main_arg4) = R1 m c (Proc.devRef .tc main_arg4)).trans (r1_main_arg4 m c)
theorem r2_main_arg5 : R2 m c (Proc.devRef .tc main_arg5) = m ((c.tc : Thread nD τ).loc main_arg5) :=
  (by show after ops1 (R1 m c) (Proc.devRef .tc main_arg5) = R1 m c (Proc.devRef .tc main_arg5)
      after_results
      try rfl : R2 m c (Proc.devRef .tc main_arg5) = R1 m c (Proc.devRef .tc main_arg5)).trans (r1_main_arg5 m c)
theorem r2_main_arg6 : R2 m c (Proc.devRef .tc main_arg6) = m ((c.tc : Thread nD τ).loc main_arg6) :=
  (by show after ops1 (R1 m c) (Proc.devRef .tc main_arg6) = R1 m c (Proc.devRef .tc main_arg6)
      after_results
      try rfl : R2 m c (Proc.devRef .tc main_arg6) = R1 m c (Proc.devRef .tc main_arg6)).trans (r1_main_arg6 m c)
theorem r2_main_arg7 : R2 m c (Proc.devRef .tc main_arg7) = m ((c.tc : Thread nD τ).loc main_arg7) :=
  (by show after ops1 (R1 m c) (Proc.devRef .tc main_arg7) = R1 m c (Proc.devRef .tc main_arg7)
      after_results
      try rfl : R2 m c (Proc.devRef .tc main_arg7) = R1 m c (Proc.devRef .tc main_arg7)).trans (r1_main_arg7 m c)
theorem r2_main_arg8 : R2 m c (Proc.devRef .tc main_arg8) = m ((c.tc : Thread nD τ).loc main_arg8) :=
  (by show after ops1 (R1 m c) (Proc.devRef .tc main_arg8) = R1 m c (Proc.devRef .tc main_arg8)
      after_results
      try rfl : R2 m c (Proc.devRef .tc main_arg8) = R1 m c (Proc.devRef .tc main_arg8)).trans (r1_main_arg8 m c)
theorem r2_main_arg9 : R2 m c (Proc.devRef .tc main_arg9) = m ((c.tc : Thread nD τ).loc main_arg9) :=
  (by show after ops1 (R1 m c) (Proc.devRef .tc main_arg9) = R1 m c (Proc.devRef .tc main_arg9)
      after_results
      try rfl : R2 m c (Proc.devRef .tc main_arg9) = R1 m c (Proc.devRef .tc main_arg9)).trans (r1_main_arg9 m c)
theorem r2_main_arg10 : R2 m c (Proc.devRef .tc main_arg10) = m ((c.tc : Thread nD τ).loc main_arg10) :=
  (by show after ops1 (R1 m c) (Proc.devRef .tc main_arg10) = R1 m c (Proc.devRef .tc main_arg10)
      after_results
      try rfl : R2 m c (Proc.devRef .tc main_arg10) = R1 m c (Proc.devRef .tc main_arg10)).trans (r1_main_arg10 m c)
theorem r2_main_v1 : R2 m c (Proc.devRef .tc main_v1) = recvOf (m ((c.tc : Thread nD τ).loc main_arg2)) :=
  (by show after ops1 (R1 m c) (Proc.devRef .tc main_v1) = R1 m c (Proc.devRef .tc main_v1)
      after_results
      try rfl : R2 m c (Proc.devRef .tc main_v1) = R1 m c (Proc.devRef .tc main_v1)).trans (r1_main_v1 m c)
theorem r2_main_v3 : R2 m c (Proc.devRef .tc main_v3) = sendOf (m ((c.tc : Thread nD τ).loc main_arg2)) :=
  (by show after ops1 (R1 m c) (Proc.devRef .tc main_v3) = R1 m c (Proc.devRef .tc main_v3)
      after_results
      try rfl : R2 m c (Proc.devRef .tc main_v3) = R1 m c (Proc.devRef .tc main_v3)).trans (r1_main_v3 m c)
theorem r2_main_v14 : R2 m c (Proc.devRef .tc main_v14) = msgR m c :=
  (by show after ops1 (R1 m c) (Proc.devRef .tc main_v14) = R1 m c (Proc.devRef .tc main_v14)
      after_results
      try rfl : R2 m c (Proc.devRef .tc main_v14) = R1 m c (Proc.devRef .tc main_v14)).trans (r1_main_v14 m c)

/-! ## Update step 2 -/

theorem r3_main_v112 : R3 m c (Proc.devRef .tc main_v112) = rst2 m c := by
  have h : R3 m c (Proc.devRef .tc main_v112)
      = hostStep (R2 m c (Proc.devRef .tc main_v1)) (R2 m c (Proc.devRef .tc main_v3)) (R2 m c (Proc.devRef .tc main_v14)) (R2 m c (Proc.devRef .tc main_v63))
          (R2 m c (Proc.devRef .tc main_arg7)) (R2 m c (Proc.devRef .tc main_arg8)) (R2 m c (Proc.devRef .tc main_arg9)) (R2 m c (Proc.devRef .tc main_arg10)) := by
    show after ops2 (R2 m c) (Proc.devRef .tc main_v112) = _
    after_results_simp
    rfl
  rw [h, r2_main_v1, r2_main_v3, r2_main_v14, r2_main_v63, r2_main_arg7, r2_main_arg8, r2_main_arg9, r2_main_arg10, hostStep_eq]
  rfl
theorem r3_main_arg0 : R3 m c (Proc.devRef .tc main_arg0) = m ((c.tc : Thread nD τ).loc main_arg0) :=
  (by show after ops2 (R2 m c) (Proc.devRef .tc main_arg0) = R2 m c (Proc.devRef .tc main_arg0)
      after_results
      try rfl : R3 m c (Proc.devRef .tc main_arg0) = R2 m c (Proc.devRef .tc main_arg0)).trans (r2_main_arg0 m c)
theorem r3_main_arg1 : R3 m c (Proc.devRef .tc main_arg1) = m ((c.tc : Thread nD τ).loc main_arg1) :=
  (by show after ops2 (R2 m c) (Proc.devRef .tc main_arg1) = R2 m c (Proc.devRef .tc main_arg1)
      after_results
      try rfl : R3 m c (Proc.devRef .tc main_arg1) = R2 m c (Proc.devRef .tc main_arg1)).trans (r2_main_arg1 m c)
theorem r3_main_arg2 : R3 m c (Proc.devRef .tc main_arg2) = m ((c.tc : Thread nD τ).loc main_arg2) :=
  (by show after ops2 (R2 m c) (Proc.devRef .tc main_arg2) = R2 m c (Proc.devRef .tc main_arg2)
      after_results
      try rfl : R3 m c (Proc.devRef .tc main_arg2) = R2 m c (Proc.devRef .tc main_arg2)).trans (r2_main_arg2 m c)
theorem r3_main_arg3 : R3 m c (Proc.devRef .tc main_arg3) = m ((c.tc : Thread nD τ).loc main_arg3) :=
  (by show after ops2 (R2 m c) (Proc.devRef .tc main_arg3) = R2 m c (Proc.devRef .tc main_arg3)
      after_results
      try rfl : R3 m c (Proc.devRef .tc main_arg3) = R2 m c (Proc.devRef .tc main_arg3)).trans (r2_main_arg3 m c)
theorem r3_main_arg4 : R3 m c (Proc.devRef .tc main_arg4) = m ((c.tc : Thread nD τ).loc main_arg4) :=
  (by show after ops2 (R2 m c) (Proc.devRef .tc main_arg4) = R2 m c (Proc.devRef .tc main_arg4)
      after_results
      try rfl : R3 m c (Proc.devRef .tc main_arg4) = R2 m c (Proc.devRef .tc main_arg4)).trans (r2_main_arg4 m c)
theorem r3_main_arg5 : R3 m c (Proc.devRef .tc main_arg5) = m ((c.tc : Thread nD τ).loc main_arg5) :=
  (by show after ops2 (R2 m c) (Proc.devRef .tc main_arg5) = R2 m c (Proc.devRef .tc main_arg5)
      after_results
      try rfl : R3 m c (Proc.devRef .tc main_arg5) = R2 m c (Proc.devRef .tc main_arg5)).trans (r2_main_arg5 m c)
theorem r3_main_arg6 : R3 m c (Proc.devRef .tc main_arg6) = m ((c.tc : Thread nD τ).loc main_arg6) :=
  (by show after ops2 (R2 m c) (Proc.devRef .tc main_arg6) = R2 m c (Proc.devRef .tc main_arg6)
      after_results
      try rfl : R3 m c (Proc.devRef .tc main_arg6) = R2 m c (Proc.devRef .tc main_arg6)).trans (r2_main_arg6 m c)
theorem r3_main_arg7 : R3 m c (Proc.devRef .tc main_arg7) = m ((c.tc : Thread nD τ).loc main_arg7) :=
  (by show after ops2 (R2 m c) (Proc.devRef .tc main_arg7) = R2 m c (Proc.devRef .tc main_arg7)
      after_results
      try rfl : R3 m c (Proc.devRef .tc main_arg7) = R2 m c (Proc.devRef .tc main_arg7)).trans (r2_main_arg7 m c)
theorem r3_main_arg8 : R3 m c (Proc.devRef .tc main_arg8) = m ((c.tc : Thread nD τ).loc main_arg8) :=
  (by show after ops2 (R2 m c) (Proc.devRef .tc main_arg8) = R2 m c (Proc.devRef .tc main_arg8)
      after_results
      try rfl : R3 m c (Proc.devRef .tc main_arg8) = R2 m c (Proc.devRef .tc main_arg8)).trans (r2_main_arg8 m c)
theorem r3_main_arg9 : R3 m c (Proc.devRef .tc main_arg9) = m ((c.tc : Thread nD τ).loc main_arg9) :=
  (by show after ops2 (R2 m c) (Proc.devRef .tc main_arg9) = R2 m c (Proc.devRef .tc main_arg9)
      after_results
      try rfl : R3 m c (Proc.devRef .tc main_arg9) = R2 m c (Proc.devRef .tc main_arg9)).trans (r2_main_arg9 m c)
theorem r3_main_arg10 : R3 m c (Proc.devRef .tc main_arg10) = m ((c.tc : Thread nD τ).loc main_arg10) :=
  (by show after ops2 (R2 m c) (Proc.devRef .tc main_arg10) = R2 m c (Proc.devRef .tc main_arg10)
      after_results
      try rfl : R3 m c (Proc.devRef .tc main_arg10) = R2 m c (Proc.devRef .tc main_arg10)).trans (r2_main_arg10 m c)
theorem r3_main_v1 : R3 m c (Proc.devRef .tc main_v1) = recvOf (m ((c.tc : Thread nD τ).loc main_arg2)) :=
  (by show after ops2 (R2 m c) (Proc.devRef .tc main_v1) = R2 m c (Proc.devRef .tc main_v1)
      after_results
      try rfl : R3 m c (Proc.devRef .tc main_v1) = R2 m c (Proc.devRef .tc main_v1)).trans (r2_main_v1 m c)
theorem r3_main_v3 : R3 m c (Proc.devRef .tc main_v3) = sendOf (m ((c.tc : Thread nD τ).loc main_arg2)) :=
  (by show after ops2 (R2 m c) (Proc.devRef .tc main_v3) = R2 m c (Proc.devRef .tc main_v3)
      after_results
      try rfl : R3 m c (Proc.devRef .tc main_v3) = R2 m c (Proc.devRef .tc main_v3)).trans (r2_main_v3 m c)
theorem r3_main_v14 : R3 m c (Proc.devRef .tc main_v14) = msgR m c :=
  (by show after ops2 (R2 m c) (Proc.devRef .tc main_v14) = R2 m c (Proc.devRef .tc main_v14)
      after_results
      try rfl : R3 m c (Proc.devRef .tc main_v14) = R2 m c (Proc.devRef .tc main_v14)).trans (r2_main_v14 m c)

/-! ## Update step 3 -/

theorem r4_main_v161 : R4 m c (Proc.devRef .tc main_v161) = rst3 m c := by
  have h : R4 m c (Proc.devRef .tc main_v161)
      = hostStep (R3 m c (Proc.devRef .tc main_v1)) (R3 m c (Proc.devRef .tc main_v3)) (R3 m c (Proc.devRef .tc main_v14)) (R3 m c (Proc.devRef .tc main_v112))
          (R3 m c (Proc.devRef .tc main_arg7)) (R3 m c (Proc.devRef .tc main_arg8)) (R3 m c (Proc.devRef .tc main_arg9)) (R3 m c (Proc.devRef .tc main_arg10)) := by
    show after ops3 (R3 m c) (Proc.devRef .tc main_v161) = _
    after_results_simp
    rfl
  rw [h, r3_main_v1, r3_main_v3, r3_main_v14, r3_main_v112, r3_main_arg7, r3_main_arg8, r3_main_arg9, r3_main_arg10, hostStep_eq]
  rfl
theorem r4_main_arg0 : R4 m c (Proc.devRef .tc main_arg0) = m ((c.tc : Thread nD τ).loc main_arg0) :=
  (by show after ops3 (R3 m c) (Proc.devRef .tc main_arg0) = R3 m c (Proc.devRef .tc main_arg0)
      after_results
      try rfl : R4 m c (Proc.devRef .tc main_arg0) = R3 m c (Proc.devRef .tc main_arg0)).trans (r3_main_arg0 m c)
theorem r4_main_arg1 : R4 m c (Proc.devRef .tc main_arg1) = m ((c.tc : Thread nD τ).loc main_arg1) :=
  (by show after ops3 (R3 m c) (Proc.devRef .tc main_arg1) = R3 m c (Proc.devRef .tc main_arg1)
      after_results
      try rfl : R4 m c (Proc.devRef .tc main_arg1) = R3 m c (Proc.devRef .tc main_arg1)).trans (r3_main_arg1 m c)
theorem r4_main_arg2 : R4 m c (Proc.devRef .tc main_arg2) = m ((c.tc : Thread nD τ).loc main_arg2) :=
  (by show after ops3 (R3 m c) (Proc.devRef .tc main_arg2) = R3 m c (Proc.devRef .tc main_arg2)
      after_results
      try rfl : R4 m c (Proc.devRef .tc main_arg2) = R3 m c (Proc.devRef .tc main_arg2)).trans (r3_main_arg2 m c)
theorem r4_main_arg3 : R4 m c (Proc.devRef .tc main_arg3) = m ((c.tc : Thread nD τ).loc main_arg3) :=
  (by show after ops3 (R3 m c) (Proc.devRef .tc main_arg3) = R3 m c (Proc.devRef .tc main_arg3)
      after_results
      try rfl : R4 m c (Proc.devRef .tc main_arg3) = R3 m c (Proc.devRef .tc main_arg3)).trans (r3_main_arg3 m c)
theorem r4_main_arg4 : R4 m c (Proc.devRef .tc main_arg4) = m ((c.tc : Thread nD τ).loc main_arg4) :=
  (by show after ops3 (R3 m c) (Proc.devRef .tc main_arg4) = R3 m c (Proc.devRef .tc main_arg4)
      after_results
      try rfl : R4 m c (Proc.devRef .tc main_arg4) = R3 m c (Proc.devRef .tc main_arg4)).trans (r3_main_arg4 m c)
theorem r4_main_arg5 : R4 m c (Proc.devRef .tc main_arg5) = m ((c.tc : Thread nD τ).loc main_arg5) :=
  (by show after ops3 (R3 m c) (Proc.devRef .tc main_arg5) = R3 m c (Proc.devRef .tc main_arg5)
      after_results
      try rfl : R4 m c (Proc.devRef .tc main_arg5) = R3 m c (Proc.devRef .tc main_arg5)).trans (r3_main_arg5 m c)
theorem r4_main_arg6 : R4 m c (Proc.devRef .tc main_arg6) = m ((c.tc : Thread nD τ).loc main_arg6) :=
  (by show after ops3 (R3 m c) (Proc.devRef .tc main_arg6) = R3 m c (Proc.devRef .tc main_arg6)
      after_results
      try rfl : R4 m c (Proc.devRef .tc main_arg6) = R3 m c (Proc.devRef .tc main_arg6)).trans (r3_main_arg6 m c)
theorem r4_main_arg7 : R4 m c (Proc.devRef .tc main_arg7) = m ((c.tc : Thread nD τ).loc main_arg7) :=
  (by show after ops3 (R3 m c) (Proc.devRef .tc main_arg7) = R3 m c (Proc.devRef .tc main_arg7)
      after_results
      try rfl : R4 m c (Proc.devRef .tc main_arg7) = R3 m c (Proc.devRef .tc main_arg7)).trans (r3_main_arg7 m c)
theorem r4_main_arg8 : R4 m c (Proc.devRef .tc main_arg8) = m ((c.tc : Thread nD τ).loc main_arg8) :=
  (by show after ops3 (R3 m c) (Proc.devRef .tc main_arg8) = R3 m c (Proc.devRef .tc main_arg8)
      after_results
      try rfl : R4 m c (Proc.devRef .tc main_arg8) = R3 m c (Proc.devRef .tc main_arg8)).trans (r3_main_arg8 m c)
theorem r4_main_arg9 : R4 m c (Proc.devRef .tc main_arg9) = m ((c.tc : Thread nD τ).loc main_arg9) :=
  (by show after ops3 (R3 m c) (Proc.devRef .tc main_arg9) = R3 m c (Proc.devRef .tc main_arg9)
      after_results
      try rfl : R4 m c (Proc.devRef .tc main_arg9) = R3 m c (Proc.devRef .tc main_arg9)).trans (r3_main_arg9 m c)
theorem r4_main_arg10 : R4 m c (Proc.devRef .tc main_arg10) = m ((c.tc : Thread nD τ).loc main_arg10) :=
  (by show after ops3 (R3 m c) (Proc.devRef .tc main_arg10) = R3 m c (Proc.devRef .tc main_arg10)
      after_results
      try rfl : R4 m c (Proc.devRef .tc main_arg10) = R3 m c (Proc.devRef .tc main_arg10)).trans (r3_main_arg10 m c)
theorem r4_main_v1 : R4 m c (Proc.devRef .tc main_v1) = recvOf (m ((c.tc : Thread nD τ).loc main_arg2)) :=
  (by show after ops3 (R3 m c) (Proc.devRef .tc main_v1) = R3 m c (Proc.devRef .tc main_v1)
      after_results
      try rfl : R4 m c (Proc.devRef .tc main_v1) = R3 m c (Proc.devRef .tc main_v1)).trans (r3_main_v1 m c)
theorem r4_main_v3 : R4 m c (Proc.devRef .tc main_v3) = sendOf (m ((c.tc : Thread nD τ).loc main_arg2)) :=
  (by show after ops3 (R3 m c) (Proc.devRef .tc main_v3) = R3 m c (Proc.devRef .tc main_v3)
      after_results
      try rfl : R4 m c (Proc.devRef .tc main_v3) = R3 m c (Proc.devRef .tc main_v3)).trans (r3_main_v3 m c)
theorem r4_main_v14 : R4 m c (Proc.devRef .tc main_v14) = msgR m c :=
  (by show after ops3 (R3 m c) (Proc.devRef .tc main_v14) = R3 m c (Proc.devRef .tc main_v14)
      after_results
      try rfl : R4 m c (Proc.devRef .tc main_v14) = R3 m c (Proc.devRef .tc main_v14)).trans (r3_main_v14 m c)

/-! ## Update step 4 -/

theorem r5_main_v210 : R5 m c (Proc.devRef .tc main_v210) = rst4 m c := by
  have h : R5 m c (Proc.devRef .tc main_v210)
      = hostStep (R4 m c (Proc.devRef .tc main_v1)) (R4 m c (Proc.devRef .tc main_v3)) (R4 m c (Proc.devRef .tc main_v14)) (R4 m c (Proc.devRef .tc main_v161))
          (R4 m c (Proc.devRef .tc main_arg7)) (R4 m c (Proc.devRef .tc main_arg8)) (R4 m c (Proc.devRef .tc main_arg9)) (R4 m c (Proc.devRef .tc main_arg10)) := by
    show after ops4 (R4 m c) (Proc.devRef .tc main_v210) = _
    after_results_simp
    rfl
  rw [h, r4_main_v1, r4_main_v3, r4_main_v14, r4_main_v161, r4_main_arg7, r4_main_arg8, r4_main_arg9, r4_main_arg10, hostStep_eq]
  rfl
theorem r5_main_arg0 : R5 m c (Proc.devRef .tc main_arg0) = m ((c.tc : Thread nD τ).loc main_arg0) :=
  (by show after ops4 (R4 m c) (Proc.devRef .tc main_arg0) = R4 m c (Proc.devRef .tc main_arg0)
      after_results
      try rfl : R5 m c (Proc.devRef .tc main_arg0) = R4 m c (Proc.devRef .tc main_arg0)).trans (r4_main_arg0 m c)
theorem r5_main_arg1 : R5 m c (Proc.devRef .tc main_arg1) = m ((c.tc : Thread nD τ).loc main_arg1) :=
  (by show after ops4 (R4 m c) (Proc.devRef .tc main_arg1) = R4 m c (Proc.devRef .tc main_arg1)
      after_results
      try rfl : R5 m c (Proc.devRef .tc main_arg1) = R4 m c (Proc.devRef .tc main_arg1)).trans (r4_main_arg1 m c)
theorem r5_main_arg2 : R5 m c (Proc.devRef .tc main_arg2) = m ((c.tc : Thread nD τ).loc main_arg2) :=
  (by show after ops4 (R4 m c) (Proc.devRef .tc main_arg2) = R4 m c (Proc.devRef .tc main_arg2)
      after_results
      try rfl : R5 m c (Proc.devRef .tc main_arg2) = R4 m c (Proc.devRef .tc main_arg2)).trans (r4_main_arg2 m c)
theorem r5_main_arg3 : R5 m c (Proc.devRef .tc main_arg3) = m ((c.tc : Thread nD τ).loc main_arg3) :=
  (by show after ops4 (R4 m c) (Proc.devRef .tc main_arg3) = R4 m c (Proc.devRef .tc main_arg3)
      after_results
      try rfl : R5 m c (Proc.devRef .tc main_arg3) = R4 m c (Proc.devRef .tc main_arg3)).trans (r4_main_arg3 m c)
theorem r5_main_arg4 : R5 m c (Proc.devRef .tc main_arg4) = m ((c.tc : Thread nD τ).loc main_arg4) :=
  (by show after ops4 (R4 m c) (Proc.devRef .tc main_arg4) = R4 m c (Proc.devRef .tc main_arg4)
      after_results
      try rfl : R5 m c (Proc.devRef .tc main_arg4) = R4 m c (Proc.devRef .tc main_arg4)).trans (r4_main_arg4 m c)
theorem r5_main_arg5 : R5 m c (Proc.devRef .tc main_arg5) = m ((c.tc : Thread nD τ).loc main_arg5) :=
  (by show after ops4 (R4 m c) (Proc.devRef .tc main_arg5) = R4 m c (Proc.devRef .tc main_arg5)
      after_results
      try rfl : R5 m c (Proc.devRef .tc main_arg5) = R4 m c (Proc.devRef .tc main_arg5)).trans (r4_main_arg5 m c)
theorem r5_main_arg6 : R5 m c (Proc.devRef .tc main_arg6) = m ((c.tc : Thread nD τ).loc main_arg6) :=
  (by show after ops4 (R4 m c) (Proc.devRef .tc main_arg6) = R4 m c (Proc.devRef .tc main_arg6)
      after_results
      try rfl : R5 m c (Proc.devRef .tc main_arg6) = R4 m c (Proc.devRef .tc main_arg6)).trans (r4_main_arg6 m c)
theorem r5_main_arg7 : R5 m c (Proc.devRef .tc main_arg7) = m ((c.tc : Thread nD τ).loc main_arg7) :=
  (by show after ops4 (R4 m c) (Proc.devRef .tc main_arg7) = R4 m c (Proc.devRef .tc main_arg7)
      after_results
      try rfl : R5 m c (Proc.devRef .tc main_arg7) = R4 m c (Proc.devRef .tc main_arg7)).trans (r4_main_arg7 m c)
theorem r5_main_arg8 : R5 m c (Proc.devRef .tc main_arg8) = m ((c.tc : Thread nD τ).loc main_arg8) :=
  (by show after ops4 (R4 m c) (Proc.devRef .tc main_arg8) = R4 m c (Proc.devRef .tc main_arg8)
      after_results
      try rfl : R5 m c (Proc.devRef .tc main_arg8) = R4 m c (Proc.devRef .tc main_arg8)).trans (r4_main_arg8 m c)
theorem r5_main_arg9 : R5 m c (Proc.devRef .tc main_arg9) = m ((c.tc : Thread nD τ).loc main_arg9) :=
  (by show after ops4 (R4 m c) (Proc.devRef .tc main_arg9) = R4 m c (Proc.devRef .tc main_arg9)
      after_results
      try rfl : R5 m c (Proc.devRef .tc main_arg9) = R4 m c (Proc.devRef .tc main_arg9)).trans (r4_main_arg9 m c)
theorem r5_main_arg10 : R5 m c (Proc.devRef .tc main_arg10) = m ((c.tc : Thread nD τ).loc main_arg10) :=
  (by show after ops4 (R4 m c) (Proc.devRef .tc main_arg10) = R4 m c (Proc.devRef .tc main_arg10)
      after_results
      try rfl : R5 m c (Proc.devRef .tc main_arg10) = R4 m c (Proc.devRef .tc main_arg10)).trans (r4_main_arg10 m c)

/-- The result buffer ends at four update steps from the launch state. -/
theorem result_R5 : R5 m c (Proc.devRef .tc main_v210) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  r5_main_v210 m c

/-- Every weakly fair execution of the reference terminates without a fault, the result at four update steps from the
    launch state and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v210) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v210).trans ((congrFun (after_ops m c) _).trans (result_R5 m c)),
     (h c main_arg0).trans ((congrFun (after_ops m c) _).trans (r5_main_arg0 m c)),
     (h c main_arg1).trans ((congrFun (after_ops m c) _).trans (r5_main_arg1 m c)),
     (h c main_arg2).trans ((congrFun (after_ops m c) _).trans (r5_main_arg2 m c)),
     (h c main_arg3).trans ((congrFun (after_ops m c) _).trans (r5_main_arg3 m c)),
     (h c main_arg4).trans ((congrFun (after_ops m c) _).trans (r5_main_arg4 m c)),
     (h c main_arg5).trans ((congrFun (after_ops m c) _).trans (r5_main_arg5 m c)),
     (h c main_arg6).trans ((congrFun (after_ops m c) _).trans (r5_main_arg6 m c)),
     (h c main_arg7).trans ((congrFun (after_ops m c) _).trans (r5_main_arg7 m c)),
     (h c main_arg8).trans ((congrFun (after_ops m c) _).trans (r5_main_arg8 m c)),
     (h c main_arg9).trans ((congrFun (after_ops m c) _).trans (r5_main_arg9 m c)),
     (h c main_arg10).trans ((congrFun (after_ops m c) _).trans (r5_main_arg10 m c))⟩)
    (run_after m ρ)

end Cert.ReferenceIdeal.Chain

end
-- ==== Proof.Bridge.lean ====
/-
  The kernel's result and the reference's result are one function of the arguments.

  Both are four update steps from the launch state on the messages of the edge network.  They differ in spelling
  only: the kernel reads each bias through its [1, n] row layout and the reference reads the vector, and each program
  names its own copy of the gather's and the scatter-add's dimension records.
-/
import proofs.«161548_j48455821033925_1_alg».proof.Proof.KernelChain
import proofs.«161548_j48455821033925_1_alg».proof.Proof.RefSide

noncomputable section

namespace Cert.Bridge

open Idealize.ShloMosaic Idealize.ShloMosaic.TcCoe Idealize.SL.Sem Cert.Gnn
open Cert.KernelIdeal

/-- The shared host chain is one function, whichever program's records spell it. -/
theorem aggregate_eq : @Cert.KernelIdeal.Chain.aggregate = @Cert.ReferenceIdeal.Bridge.aggregate := rfl

/-- One update step: the kernel's spelling is the reference's. -/
theorem kstep_eq (v1 v3 : IVec S1000000 32) (msg : FVec Ideal S1000000x64 .f32) (h : FVec Ideal S100000x64 .f32)
    (w7 : FVec Ideal S192x64 .f32) (b8 : FVec Ideal S192 .f32) (w9 : FVec Ideal S192x64 .f32) (b10 : FVec Ideal S192 .f32) :
    Cert.KernelIdeal.Chain.kstep v1 v3 msg h w7 b8 w9 b10 = Cert.ReferenceIdeal.Bridge.step v1 v3 msg h w7 b8 w9 b10 := by
  unfold Cert.KernelIdeal.Chain.kstep Cert.ReferenceIdeal.Bridge.step
  rw [biasRow_reshape, biasRow_reshape, aggregate_eq]

variable (m : (ℓ : Loc nD τ sig) → Buf (Elt Ideal) ℓ) (c : Dev nD)

theorem recv_eq : Cert.KernelIdeal.Chain.recv m c = Cert.ReferenceIdeal.Bridge.recvOf (m ((c : Thread nD τ).loc main_arg2)) := rfl
theorem send_eq : Cert.KernelIdeal.Chain.send m c = Cert.ReferenceIdeal.Bridge.sendOf (m ((c : Thread nD τ).loc main_arg2)) := rfl
theorem msgs_eq : Cert.KernelIdeal.Chain.msgs m c
    = mlpArr (R := 1000000) (m ((c : Thread nD τ).loc main_arg1)) (m ((c : Thread nD τ).loc main_arg3)) (biasVec (n := 64) (m ((c : Thread nD τ).loc main_arg4)))
        (m ((c : Thread nD τ).loc main_arg5)) (biasVec (n := 64) (m ((c : Thread nD τ).loc main_arg6))) := by
  unfold Cert.KernelIdeal.Chain.msgs
  rw [biasRow_reshape, biasRow_reshape]

/-- Four update steps in the kernel's spelling are the reference's result. -/
theorem result_eq : Cert.KernelIdeal.Chain.st4 m c = Cert.ReferenceIdeal.Bridge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Cert.KernelIdeal.Chain.st4 Cert.KernelIdeal.Chain.st3 Cert.KernelIdeal.Chain.st2 Cert.KernelIdeal.Chain.st1 Cert.KernelIdeal.Chain.st0
    Cert.ReferenceIdeal.Bridge.result
  simp only [kstep_eq, recv_eq, send_eq, msgs_eq]

end Cert.Bridge

end
-- ==== Proof.lean ====
/-
  The five claims of this certificate.

  The program is a message-passing network: an edge network computes one message row per edge, and four times the
  nodes' states are gathered along the edges, multiplied by the messages, added up per receiver and passed with the
  old state through a gated recurrent cell.  The kernel computes the edge network and the cell block of rows by block
  of rows inside five calls; the reference computes them whole by host operations.  At the ideal values both results
  are four update steps from the launch state (KernelChain, RefSide), and the two spellings are one function (Bridge).
  The three frames: the two kernel programs' are the generated frame certificates, the reference's is its run (RefChain)
  with the result dropped.  The idealization rewrote nothing, so `preserves` is `True`.
-/
import proofs.«161548_j48455821033925_1_alg».proof.Defs
import proofs.«161548_j48455821033925_1_alg».proof.Proof.Gen.Kernel
import proofs.«161548_j48455821033925_1_alg».proof.Proof.Gen.Kernel.Frame
import proofs.«161548_j48455821033925_1_alg».proof.Proof.Gen.KernelIdeal
import proofs.«161548_j48455821033925_1_alg».proof.Proof.Gen.KernelIdeal.Frame
import proofs.«161548_j48455821033925_1_alg».proof.Proof.Gen.ReferenceIdeal
import proofs.«161548_j48455821033925_1_alg».proof.Proof.Gen.Pre_finite_inputs
import proofs.«161548_j48455821033925_1_alg».proof.Proof.KernelRun
import proofs.«161548_j48455821033925_1_alg».proof.Proof.KernelChain
import proofs.«161548_j48455821033925_1_alg».proof.Proof.RefSide
import proofs.«161548_j48455821033925_1_alg».proof.Proof.RefChain
import proofs.«161548_j48455821033925_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Chain.run m ρ)

/-- Both programs end with the state after four update steps; the kernel's spelling of it is the reference's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Chain.st4 m c, ?_, ?_⟩
  · exact (θ_run Cert.KernelIdeal.defs _ _).mono
      (fun r h c => ⟨(h c).1.trans (Cert.KernelIdeal.Chain.at10_main_v62 m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Chain.run m' ρ')
    obtain ⟨h0, h1, h2, h3, h4, h5, h6, h7, h8, h9, h10⟩ := hagree c
    rw [h0, h1, h2, h3, h4, h5, h6, h7, h8, h9, h10]
    exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
